-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg8 : FVec F S256 .f32) (main_arg9 : FVec F S256 .f32) (main_arg10 : FVec F S128x256 .f32) (main_arg11 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg5 : FVec F S256 .f32) (main_arg6 : FVec F S256 .f32) (main_arg7 : FVec F S256 .f32) (main_arg8 : FVec F S256 .f32) (main_arg9 : FVec F S256 .f32) (main_arg10 : FVec F S128x256 .f32) (main_arg11 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x256 .f32) (main_arg3 : FVec F S256 .f32) (main_arg4 : FVec F S256x256 .f32) (main_arg5 : FVec F S256 .f32) (main_arg6 : FVec F S256 .f32) (main_arg7 : FVec F S256 .f32) (main_arg8 : FVec F S256 .f32) (main_arg9 : FVec F S256 .f32) (main_arg10 : FVec F S128x256 .f32) (main_arg11 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S50000x1 : Shape := ⟨2, ![50000, 1]⟩
abbrev S2000 : Shape := ⟨1, ![2000]⟩
abbrev S2000x1 : Shape := ⟨2, ![2000, 1]⟩

abbrev nBuf : Space → Nat
  | .hbm => 122
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S128x256, .f32⟩
  | .hbm, ⟨11, _⟩ => ⟨S256, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S50000x256, .f32⟩
  | .hbm, ⟨32, _⟩ => ⟨S50000x256, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000, .f32⟩
  | .hbm, ⟨51, _⟩ => ⟨S800000, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .f32⟩
  | .hbm, ⟨61, _⟩ => ⟨S800000x1, .f32⟩
  | .hbm, ⟨62, _⟩ => ⟨S800000x256, .f32⟩
  | .hbm, ⟨63, _⟩ => ⟨S800000x256, .f32⟩
  | .hbm, ⟨64, _⟩ => ⟨S_, .f32⟩
  | .hbm, ⟨65, _⟩ => ⟨S50000x256, .f32⟩
  | .hbm, ⟨66, _⟩ => ⟨S800000x1, .i32⟩
  | .hbm, ⟨67, _⟩ => ⟨S50000x256, .f32⟩
  | .hbm, ⟨68, _⟩ => ⟨S50000, .f32⟩
  | .hbm, ⟨69, _⟩ => ⟨S50000x1, .f32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S1x256, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000, .f32⟩
  | .hbm, ⟨96, _⟩ => ⟨S800000, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x256, .f32⟩
  | .hbm, ⟨106, _⟩ => ⟨S800000x1, .f32⟩
  | .hbm, ⟨107, _⟩ => ⟨S800000x256, .f32⟩
  | .hbm, ⟨108, _⟩ => ⟨S800000x256, .f32⟩
  | .hbm, ⟨109, _⟩ => ⟨S_, .f32⟩
  | .hbm, ⟨110, _⟩ => ⟨S50000x256, .f32⟩
  | .hbm, ⟨111, _⟩ => ⟨S800000x1, .i32⟩
  | .hbm, ⟨112, _⟩ => ⟨S50000x256, .f32⟩
  | .hbm, ⟨113, _⟩ => ⟨S50000, .f32⟩
  | .hbm, ⟨114, _⟩ => ⟨S50000x1, .f32⟩
  | .hbm, ⟨115, _⟩ => ⟨S50000x256, .f32⟩
  | .hbm, ⟨116, _⟩ => ⟨S50000x256, .f32⟩
  | .hbm, ⟨117, _⟩ => ⟨S50000x256, .f32⟩
  | .hbm, ⟨118, _⟩ => ⟨S1x256, .f32⟩
  | .hbm, ⟨119, _⟩ => ⟨S50000x256, .f32⟩
  | .hbm, ⟨120, _⟩ => ⟨S50000x256, .f32⟩
  | .hbm, ⟨121, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S128x256, .f32⟩
  | .local _ .vmem, ⟨4, _⟩ => ⟨S1x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S1x256, .f32⟩
  | .local _ .vmem, ⟨12, _⟩ => ⟨S1x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S1x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_8 : Ref sig .tc := ⟨.hbm, 78, rfl⟩
abbrev main_v55 : Ref sig .tc := ⟨.hbm, 79, rfl⟩
abbrev main_v56 : Ref sig .tc := ⟨.hbm, 80, rfl⟩
abbrev main_c_9 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_10 : Ref sig .tc := ⟨.hbm, 87, rfl⟩
abbrev main_v62 : Ref sig .tc := ⟨.hbm, 88, rfl⟩
abbrev main_v63 : Ref sig .tc := ⟨.hbm, 89, rfl⟩
abbrev main_c_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_12 : Ref sig .tc := ⟨.hbm, 97, rfl⟩
abbrev main_v70 : Ref sig .tc := ⟨.hbm, 98, rfl⟩
abbrev main_v71 : Ref sig .tc := ⟨.hbm, 99, rfl⟩
abbrev main_c_13 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_14 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  reduces_S2000x256_S2000 : S2000x256.Reduces [1] S2000
  shapeCasts_S2000_S2000x1 : S2000.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v52) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v53) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v90) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16_1) S2000x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v91) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S50000x256 : Shape := ⟨2, ![50000, 256]⟩
abbrev S1x256 : Shape := ⟨2, ![1, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩

abbrev nBuf : Space → Nat
  | .hbm => 193
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x256, .f32⟩
  | 5 => ⟨S256, .f32⟩
  | 6 => ⟨S256, .f32⟩
  | 7 => ⟨S256, .f32⟩
  | 8 => ⟨S256, .f32⟩
  | 9 => ⟨S256, .f32⟩
  | 10 => ⟨S128x256, .f32⟩
  | 11 => ⟨S256, .f32⟩
  | 12 => ⟨S1x800000, .i32⟩
  | 13 => ⟨S800000, .i32⟩
  | 14 => ⟨S1x800000, .i32⟩
  | 15 => ⟨S800000, .i32⟩
  | 16 => ⟨S50000x256, .f32⟩
  | 17 => ⟨S1x256, .f32⟩
  | 18 => ⟨S50000x256, .f32⟩
  | 19 => ⟨S50000x256, .f32⟩
  | 20 => ⟨S50000x256, .f32⟩
  | 21 => ⟨S_, .f32⟩
  | 22 => ⟨S800000, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x256, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S800000, .f32⟩
  | 59 => ⟨S800000x1, .f32⟩
  | 60 => ⟨S800000x256, .f32⟩
  | 61 => ⟨S800000x256, .f32⟩
  | 62 => ⟨S_, .f32⟩
  | 63 => ⟨S50000x256, .f32⟩
  | 64 => ⟨S800000x1, .i32⟩
  | 65 => ⟨S50000x256, .f32⟩
  | 66 => ⟨S50000, .f32⟩
  | 67 => ⟨S50000x1, .f32⟩
  | 68 => ⟨S50000x256, .f32⟩
  | 69 => ⟨S50000x256, .f32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S50000, .f32⟩
  | 76 => ⟨S50000x1, .f32⟩
  | 77 => ⟨S_, .f32⟩
  | 78 => ⟨S50000x1, .f32⟩
  | 79 => ⟨S50000x1, .f32⟩
  | 80 => ⟨S50000x256, .f32⟩
  | 81 => ⟨S50000x256, .f32⟩
  | 82 => ⟨S50000x256, .f32⟩
  | 83 => ⟨S_, .f32⟩
  | 84 => ⟨S50000, .f32⟩
  | 85 => ⟨S50000x1, .f32⟩
  | 86 => ⟨S_, .f32⟩
  | 87 => ⟨S50000x1, .f32⟩
  | 88 => ⟨S50000x1, .f32⟩
  | 89 => ⟨S50000x256, .f32⟩
  | 90 => ⟨S50000x256, .f32⟩
  | 91 => ⟨S_, .f32⟩
  | 92 => ⟨S50000x1, .f32⟩
  | 93 => ⟨S50000x1, .f32⟩
  | 94 => ⟨S50000x1, .f32⟩
  | 95 => ⟨S50000x256, .f32⟩
  | 96 => ⟨S50000x256, .f32⟩
  | 97 => ⟨S1x256, .f32⟩
  | 98 => ⟨S50000x256, .f32⟩
  | 99 => ⟨S50000x256, .f32⟩
  | 100 => ⟨S1x256, .f32⟩
  | 101 => ⟨S50000x256, .f32⟩
  | 102 => ⟨S50000x256, .f32⟩
  | 103 => ⟨S_, .f32⟩
  | 104 => ⟨S50000x256, .f32⟩
  | 105 => ⟨S50000x256, .f32⟩
  | 106 => ⟨S50000x256, .f32⟩
  | 107 => ⟨S_, .f32⟩
  | 108 => ⟨S800000, .f32⟩
  | 109 => ⟨S_, .f32⟩
  | 110 => ⟨S50000, .f32⟩
  | 111 => ⟨S800000x1, .i32⟩
  | 112 => ⟨S50000, .f32⟩
  | 113 => ⟨S_, .f32⟩
  | 114 => ⟨S50000, .f32⟩
  | 115 => ⟨S50000, .f32⟩
  | 116 => ⟨S50000, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x256, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000, .f32⟩
  | 16 => ⟨S800000, .f32⟩
  | 17 => ⟨S800000x1, .f32⟩
  | 18 => ⟨S800000x256, .f32⟩
  | 19 => ⟨S800000x256, .f32⟩
  | 20 => ⟨S_, .f32⟩
  | 21 => ⟨S50000x256, .f32⟩
  | 22 => ⟨S800000x1, .i32⟩
  | 23 => ⟨S50000x256, .f32⟩
  | 24 => ⟨S50000, .f32⟩
  | 25 => ⟨S50000x1, .f32⟩
  | 26 => ⟨S50000x256, .f32⟩
  | 27 => ⟨S50000x256, .f32⟩
  | 28 => ⟨S50000x256, .f32⟩
  | 29 => ⟨S1x256, .f32⟩
  | 30 => ⟨S50000x256, .f32⟩
  | 31 => ⟨S50000x256, .f32⟩
  | 32 => ⟨S_, .f32⟩
  | 33 => ⟨S50000, .f32⟩
  | 34 => ⟨S50000x1, .f32⟩
  | 35 => ⟨S_, .f32⟩
  | 36 => ⟨S50000x1, .f32⟩
  | 37 => ⟨S50000x1, .f32⟩
  | 38 => ⟨S50000x256, .f32⟩
  | 39 => ⟨S50000x256, .f32⟩
  | 40 => ⟨S50000x256, .f32⟩
  | 41 => ⟨S_, .f32⟩
  | 42 => ⟨S50000, .f32⟩
  | 43 => ⟨S50000x1, .f32⟩
  | 44 => ⟨S_, .f32⟩
  | 45 => ⟨S50000x1, .f32⟩
  | 46 => ⟨S50000x1, .f32⟩
  | 47 => ⟨S50000x256, .f32⟩
  | 48 => ⟨S50000x256, .f32⟩
  | 49 => ⟨S_, .f32⟩
  | 50 => ⟨S50000x1, .f32⟩
  | 51 => ⟨S50000x1, .f32⟩
  | 52 => ⟨S50000x1, .f32⟩
  | 53 => ⟨S50000x256, .f32⟩
  | 54 => ⟨S50000x256, .f32⟩
  | 55 => ⟨S1x256, .f32⟩
  | 56 => ⟨S50000x256, .f32⟩
  | 57 => ⟨S50000x256, .f32⟩
  | 58 => ⟨S1x256, .f32⟩
  | 59 => ⟨S50000x256, .f32⟩
  | 60 => ⟨S50000x256, .f32⟩
  | 61 => ⟨S50000x256, .f32⟩
  | 62 => ⟨S_, .f32⟩
  | 63 => ⟨S50000x256, .f32⟩
  | 64 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_call0_cst : Ref sig .tc := ⟨.hbm, 103, rfl⟩
abbrev main_call0_v0 : Ref sig .tc := ⟨.hbm, 104, rfl⟩
abbrev main_v76 : Ref sig .tc := ⟨.hbm, 105, rfl⟩
abbrev main_v77 : Ref sig .tc := ⟨.hbm, 106, rfl⟩
abbrev main_cst_13 : Ref sig .tc := ⟨.hbm, 107, rfl⟩
abbrev main_v78 : Ref sig .tc := ⟨.hbm, 108, rfl⟩
abbrev main_cst_14 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_16 : Ref sig .tc := ⟨.hbm, 117, rfl⟩
abbrev main_v85 : Ref sig .tc := ⟨.hbm, 118, rfl⟩
abbrev main_v86 : Ref sig .tc := ⟨.hbm, 119, rfl⟩
abbrev main_c_17 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_18 : Ref sig .tc := ⟨.hbm, 126, rfl⟩
abbrev main_v92 : Ref sig .tc := ⟨.hbm, 127, rfl⟩
abbrev main_v93 : Ref sig .tc := ⟨.hbm, 128, rfl⟩
abbrev main_c_19 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_20 : Ref sig .tc := ⟨.hbm, 135, rfl⟩
abbrev main_v99 : Ref sig .tc := ⟨.hbm, 136, rfl⟩
abbrev main_v100 : Ref sig .tc := ⟨.hbm, 137, rfl⟩
abbrev main_c_21 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_22 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_23 : Ref sig .tc := ⟨.hbm, 160, rfl⟩
abbrev main_v121 : Ref sig .tc := ⟨.hbm, 161, rfl⟩
abbrev main_v122 : Ref sig .tc := ⟨.hbm, 162, rfl⟩
abbrev main_cst_24 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_25 : Ref sig .tc := ⟨.hbm, 169, rfl⟩
abbrev main_v128 : Ref sig .tc := ⟨.hbm, 170, rfl⟩
abbrev main_v129 : Ref sig .tc := ⟨.hbm, 171, rfl⟩
abbrev main_cst_26 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_27 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_call1_cst : Ref sig .tc := ⟨.hbm, 190, rfl⟩
abbrev main_call1_v0 : Ref sig .tc := ⟨.hbm, 191, rfl⟩
abbrev main_v146 : Ref sig .tc := ⟨.hbm, 192, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  reducesTo_S50000x256_S50000_d1 : S50000x256.ReducesTo [1] S50000
  h_S_ : 0 < S_.numel
  bcast_S_S50000x1 : S_.BroadcastsInDim S50000x1 (![] : Fin 0 → Fin S50000x1.rank)
  dot_S50000x128_S128x256_S50000x256_1_0_0_1_n_n_wf : DotDims.WF S50000x128 S128x256 S50000x256 [1] [0] [0] [1] [] []
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  gather_S50000_S800000x1_S800000_n_0_n_n_0_1_1_wf : GatherDims.WF S50000 S800000x1 S800000 [] [0] [] [0] [] 1 ![1]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KRun.lean ====
/-
  The idealized kernel's run with its result array named: every weakly fair execution ends with the result buffer at
  what the last region leaves in it, and the argument arrays as launched.  The segments, the boundary contents and the
  thread states are the generated ones; only the fact read off the final state is longer than the frame's (it also
  reads the result buffer).
-/
import proofs.«177957_j2018634629420_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the final state as well as the arguments. -/
theorem run : θ_run defs (onTc (τ := τ) (main (F := F))) ⟨m, fun _ => 0, ρ⟩ (fun r => ∀ c : Dev nD,
      r.2.mem ((c.tc : Thread nD τ).loc main_v91) = W7 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v91 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.KRun

end
-- ==== Proof.HostOps.lean ====
/-
  The host-side stages of the graph convolution, as functions of their operands (at any float instance).

  * `rowOf e`, `colOf e`: the source and the target node of every edge (rows 0 and 1 of the edge list).
  * `wrap r`: an index vector with negative entries shifted up by the number of nodes, as a column (what a look-up takes).
  * `dinv col`: 1/sqrt(1 + the number of edges into each node): ones scattered and added along `col`, plus one, rsqrt.
  * `agg h dv row col b`: one propagation step,
      out[n, ·] = Σ_{e : col e = n} h[row e, ·] · (dv[row e] · dv[col e]) + h[n, ·] · (dv[n] · dv[n]) + b,
    as the host computes it: a row look-up, a product with the broadcast edge weights, a scatter-add of rows, the
    self-loop term and the bias.
  Both programs apply exactly these stages to the same operands; nothing about them is opened.
-/
import proofs.«177957_j2018634629420_1_alg».proof.Proof.Gen.KernelIdeal

noncomputable section

namespace Cert.KernelIdeal.HostOps

open Cert.KernelIdeal Cert.KernelIdeal.Facts₀ Idealize.ShloMosaic

variable {F : FTy → Type} [FloatOps F]

/-- The source node of every edge: row 0 of the edge list. -/
def rowOf (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- The target node of every edge: row 1 of the edge list. -/
def colOf (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- An index vector made ready for a look-up: negative entries shifted up by 50000, then laid as a column. -/
def wrap (r : (⟨S800000, .i32⟩ : BufTy).Contents (Elt F)) : (⟨S800000x1, .i32⟩ : BufTy).Contents (Elt F) :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- The inverse square root of each node's degree (self-loop included). -/
def dinv (col : (⟨S800000, .i32⟩ : BufTy).Contents (Elt F)) : (⟨S50000, .f32⟩ : BufTy).Contents (Elt F) :=
  Host.rsqrt (addf
    (Host.scatterAdd scatter_S50000_S800000x1_S800000_n_0_0_1
      (broadcastInDim S50000 ![] bcast_S_S50000 (constant S_ .f32 0x00000000#32))
      (broadcastInDim S800000x1 ![0] bcast_S800000_S800000x1_0 col)
      (broadcastInDim S800000 ![] bcast_S_S800000 (constant S_ .f32 0x3F800000#32)))
    (broadcastInDim S50000 ![] bcast_S_S50000 (constant S_ .f32 0x3F800000#32)))

/-- One propagation step of the graph convolution over features `h`. -/
def agg (h : (⟨S50000x256, .f32⟩ : BufTy).Contents (Elt F)) (dv : (⟨S50000, .f32⟩ : BufTy).Contents (Elt F))
    (row col : (⟨S800000, .i32⟩ : BufTy).Contents (Elt F)) (b : (⟨S256, .f32⟩ : BufTy).Contents (Elt F)) :
    (⟨S50000x256, .f32⟩ : BufTy).Contents (Elt F) :=
  addf
    (addf
      (Host.scatterAdd scatter_S50000x256_S800000x1_S800000x256_1_0_0_1
        (broadcastInDim S50000x256 ![] bcast_S_S50000x256 (constant S_ .f32 0x00000000#32))
        (broadcastInDim S800000x1 ![0] bcast_S800000_S800000x1_0 col)
        (mulf (Host.gather gather_S50000x256_S800000x1_S800000x256_1_0_n_n_0_1_1256 h (wrap row))
          (broadcastInDim S800000x256 ![0, 1] bcast_S800000x1_S800000x256_0_1
            (broadcastInDim S800000x1 ![0] bcast_S800000_S800000x1_0
              (mulf (Host.gather gather_S50000_S800000x1_S800000_n_0_n_n_0_1_1 dv (wrap row))
                (Host.gather gather_S50000_S800000x1_S800000_n_0_n_n_0_1_1 dv (wrap col)))))))
      (mulf h (broadcastInDim S50000x256 ![0, 1] bcast_S50000x1_S50000x256_0_1
        (broadcastInDim S50000x1 ![0] bcast_S50000_S50000x1_0 (mulf dv dv)))))
    (broadcastInDim S50000x256 ![0, 1] bcast_S1x256_S50000x256_0_1 (broadcastInDim S1x256 ![1] bcast_S256_S1x256_1 b))

end Cert.KernelIdeal.HostOps

end
-- ==== Proof.Spec.lean ====
/-
  The mathematics of the two programs, index by index, on the extended reals.

  * `mm x w`: the matrix product, entry (r, c) = Σ_k x[r, k] · w[k, c].
  * `lnrow h g b r q`: entry q of row r of a layer normalisation over the 256 columns of `h`: with
    μ = (Σ_k h[r, k]) / 256 and σ² = (Σ_k (h[r, k] − μ)²) / 256, it is (h[r, q] − μ) · rsqrt(σ² + ε) · g[q] + b[q].
    It depends on row r of `h` only (`lnrow_congr`), which is why a block of rows can be normalised by itself.
  * `lnrelu`, `lnres`: the normalised row clamped below at zero, without and with a residual added first.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The float words of 256, of the layer normalisation's ε, and of 0, read at the ideal instance. -/
abbrev w256 : EReal := Ideal.ofBits .f32 0x43800000#32
abbrev weps : EReal := Ideal.ofBits .f32 0x3727C5AC#32
abbrev w0 : EReal := Ideal.ofBits .f32 0x00000000#32

/-- The matrix product: entry (r, c) is the sum over k of x[r, k] · w[k, c]. -/
def mm {R K C : ℕ} (x : (⟨2, ![R, K]⟩ : Shape).Idx → EReal) (w : (⟨2, ![K, C]⟩ : Shape).Idx → EReal) :
    (⟨2, ![R, C]⟩ : Shape).Idx → EReal :=
  fun i => ∑ k : Fin K, x (ix2 (i 0) k) * w (ix2 k (i 1))

theorem mm_apply {R K C : ℕ} (x : (⟨2, ![R, K]⟩ : Shape).Idx → EReal) (w : (⟨2, ![K, C]⟩ : Shape).Idx → EReal)
    (r : Fin R) (c : Fin C) : mm x w (ix2 r c) = ∑ k : Fin K, x (ix2 r k) * w (ix2 k c) := rfl

/-- The matrix product with a row vector added to every row. -/
def mmb {R K C : ℕ} (x : (⟨2, ![R, K]⟩ : Shape).Idx → EReal) (w : (⟨2, ![K, C]⟩ : Shape).Idx → EReal)
    (b : (⟨1, ![C]⟩ : Shape).Idx → EReal) : (⟨2, ![R, C]⟩ : Shape).Idx → EReal :=
  fun i => (∑ k : Fin K, x (ix2 (i 0) k) * w (ix2 k (i 1))) + b (ix1 (i 1))

theorem mmb_apply {R K C : ℕ} (x : (⟨2, ![R, K]⟩ : Shape).Idx → EReal) (w : (⟨2, ![K, C]⟩ : Shape).Idx → EReal)
    (b : (⟨1, ![C]⟩ : Shape).Idx → EReal) (r : Fin R) (c : Fin C) :
    mmb x w b (ix2 r c) = (∑ k : Fin K, x (ix2 r k) * w (ix2 k c)) + b (ix1 c) := rfl

/-- The mean of row r over its 256 columns. -/
def mean {R : ℕ} (h : (⟨2, ![R, 256]⟩ : Shape).Idx → EReal) (r : Fin R) : EReal :=
  Ideal.div (∑ k : Fin 256, h (ix2 r k)) w256

/-- The variance of row r: the mean of the squared deviations from the row's mean. -/
def var {R : ℕ} (h : (⟨2, ![R, 256]⟩ : Shape).Idx → EReal) (r : Fin R) : EReal :=
  Ideal.div (∑ k : Fin 256, (h (ix2 r k) - mean h r) * (h (ix2 r k) - mean h r)) w256

/-- Entry q of the normalised row r, scaled by g and shifted by b. -/
def lnrow {R : ℕ} (h : (⟨2, ![R, 256]⟩ : Shape).Idx → EReal) (g b : Fin 256 → EReal) (r : Fin R) (q : Fin 256) : EReal :=
  (h (ix2 r q) - mean h r) * Ideal.rsqrt (var h r + weps) * g q + b q

/-- The normalised row depends on that row of the matrix only. -/
theorem lnrow_congr {R R' : ℕ} (h : (⟨2, ![R, 256]⟩ : Shape).Idx → EReal) (h' : (⟨2, ![R', 256]⟩ : Shape).Idx → EReal)
    (g b : Fin 256 → EReal) (r : Fin R) (r' : Fin R') (hr : ∀ k : Fin 256, h (ix2 r k) = h' (ix2 r' k)) (q : Fin 256) :
    lnrow h g b r q = lnrow h' g b r' q := by
  have hm : mean h r = mean h' r' := by
    unfold mean; exact congrArg (fun s => Ideal.div s w256) (Finset.sum_congr rfl fun k _ => hr k)
  have hv : var h r = var h' r' := by
    unfold var; rw [hm]
    exact congrArg (fun s => Ideal.div s w256) (Finset.sum_congr rfl fun k _ => by rw [hr k])
  unfold lnrow; rw [hm, hv, hr q]

/-- Layer normalisation of every row, then the maximum with zero. -/
def lnrelu {R : ℕ} (h : (⟨2, ![R, 256]⟩ : Shape).Idx → EReal) (g b : (⟨1, ![256]⟩ : Shape).Idx → EReal) :
    (⟨2, ![R, 256]⟩ : Shape).Idx → EReal :=
  fun i => max (lnrow h (fun q => g (ix1 q)) (fun q => b (ix1 q)) (i 0) (i 1)) w0

theorem lnrelu_apply {R : ℕ} (h : (⟨2, ![R, 256]⟩ : Shape).Idx → EReal) (g b : (⟨1, ![256]⟩ : Shape).Idx → EReal)
    (r : Fin R) (q : Fin 256) :
    lnrelu h g b (ix2 r q) = max (lnrow h (fun q => g (ix1 q)) (fun q => b (ix1 q)) r q) w0 := rfl

/-- Layer normalisation of every row, a residual added, then the maximum with zero. -/
def lnres {R : ℕ} (h : (⟨2, ![R, 256]⟩ : Shape).Idx → EReal) (g b : (⟨1, ![256]⟩ : Shape).Idx → EReal)
    (idn : (⟨2, ![R, 256]⟩ : Shape).Idx → EReal) : (⟨2, ![R, 256]⟩ : Shape).Idx → EReal :=
  fun i => max (lnrow h (fun q => g (ix1 q)) (fun q => b (ix1 q)) (i 0) (i 1) + idn i) w0

theorem lnres_apply {R : ℕ} (h : (⟨2, ![R, 256]⟩ : Shape).Idx → EReal) (g b : (⟨1, ![256]⟩ : Shape).Idx → EReal)
    (idn : (⟨2, ![R, 256]⟩ : Shape).Idx → EReal) (r : Fin R) (q : Fin 256) :
    lnres h g b idn (ix2 r q) = max (lnrow h (fun q => g (ix1 q)) (fun q => b (ix1 q)) r q + idn (ix2 r q)) w0 := rfl

end Cert.Spec

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Pay.lean ====
/-
  What each kernel body stores, read at one entry, on the extended reals.

  The two matrix-product bodies store Σ_k x[p, k] · w[k, q] (the casts to the narrow float format are the identity on
  the extended reals, and the accumulator starts at zero); the first body's second output adds the row vector.
  The two normalisation bodies store the layer normalisation of row p of their block — the row sum kept as a
  column, divided by 256, laid back along the row, and so on — clamped below at zero, the second after adding the
  residual block.
-/
import proofs.«177957_j2018634629420_1_alg».proof.Proof.Gen.KernelIdeal.Skeleton
import proofs.«177957_j2018634629420_1_alg».proof.Proof.Spec
import proofs.«177957_j2018634629420_1_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Spec

/-! ## The matrix products -/

theorem lhs128_0 (i : S2000x256.Idx) (c : dot_S2000x128_S128x256_S2000x256_1_0_0_1_n_n.contr.Idx) : (dot_S2000x128_S128x256_S2000x256_1_0_0_1_n_n.lhsIdx i c 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs128_1 (i : S2000x256.Idx) (c : dot_S2000x128_S128x256_S2000x256_1_0_0_1_n_n.contr.Idx) : (dot_S2000x128_S128x256_S2000x256_1_0_0_1_n_n.lhsIdx i c 1).val = (c ⟨0, by decide⟩).val :=
  dot_S2000x128_S128x256_S2000x256_1_0_0_1_n_n.lhsIdx_val_of_single rfl i c
theorem rhs128_0 (i : S2000x256.Idx) (c : dot_S2000x128_S128x256_S2000x256_1_0_0_1_n_n.contr.Idx) : (dot_S2000x128_S128x256_S2000x256_1_0_0_1_n_n.rhsIdx i c 0).val = (c ⟨0, by decide⟩).val :=
  dot_S2000x128_S128x256_S2000x256_1_0_0_1_n_n.rhsIdx_val_of_single rfl i c
theorem rhs128_1 (i : S2000x256.Idx) (c : dot_S2000x128_S128x256_S2000x256_1_0_0_1_n_n.contr.Idx) : (dot_S2000x128_S128x256_S2000x256_1_0_0_1_n_n.rhsIdx i c 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The product of a 2000 × 128 block with a 128 × 256 matrix into a zero accumulator, at entry (p, q): the sum over the
    contracted axis (the contraction's one-axis index re-indexed by k). -/
theorem matmul128_apply (l : FVec Ideal S2000x128 .bf16) (r : FVec Ideal S128x256 .bf16) (p : Fin 2000) (q : Fin 256) :
    matmul dot_S2000x128_S128x256_S2000x256_1_0_0_1_n_n none l r (constant S2000x256 .f32 0x00000000#32) (ix2 p q)
      = ∑ k : Fin 128, l (ix2 p k) * r (ix2 k q) := by
  refine (Ideal.matmul_constant_zero_apply dot_S2000x128_S128x256_S2000x256_1_0_0_1_n_n none l r (ix2 p q)).trans ?_
  rw [← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k :=
    funext fun a => Fin.ext (by
      match a with
      | ⟨0, _⟩ => exact lhs128_0 _ _
      | ⟨1, _⟩ => exact (lhs128_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q :=
    funext fun a => Fin.ext (by
      match a with
      | ⟨0, _⟩ => exact (rhs128_0 _ _).trans hk
      | ⟨1, _⟩ => exact rhs128_1 _ _)
  rw [el, er]

theorem lhs256_0 (i : S2000x256.Idx) (c : dot_S2000x256_S256x256_S2000x256_1_0_0_1_n_n.contr.Idx) : (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs256_1 (i : S2000x256.Idx) (c : dot_S2000x256_S256x256_S2000x256_1_0_0_1_n_n.contr.Idx) : (dot_S2000x256_S256x256_S2000x256_1_0_0_1_n_n.lhsIdx i c 1).val = (c ⟨0, by decide⟩).val :=
  dot_S2000x256_S256x256_S2000x256_1_0_0_1_n_n.lhsIdx_val_of_single rfl i c
theorem rhs256_0 (i : S2000x256.Idx) (c : dot_S2000x256_S256x256_S2000x256_1_0_0_1_n_n.contr.Idx) : (dot_S2000x256_S256x256_S2000x256_1_0_0_1_n_n.rhsIdx i c 0).val = (c ⟨0, by decide⟩).val :=
  dot_S2000x256_S256x256_S2000x256_1_0_0_1_n_n.rhsIdx_val_of_single rfl i c
theorem rhs256_1 (i : S2000x256.Idx) (c : dot_S2000x256_S256x256_S2000x256_1_0_0_1_n_n.contr.Idx) : (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product of a 2000 × 256 block with a 256 × 256 matrix into a zero accumulator, at entry (p, q): the sum over the
    contracted axis (the contraction's one-axis index re-indexed by k). -/
theorem matmul256_apply (l : FVec Ideal S2000x256 .bf16) (r : FVec Ideal S256x256 .bf16) (p : Fin 2000) (q : Fin 256) :
    matmul dot_S2000x256_S256x256_S2000x256_1_0_0_1_n_n none l r (constant S2000x256 .f32 0x00000000#32) (ix2 p q)
      = ∑ k : Fin 256, l (ix2 p k) * r (ix2 k q) := by
  refine (Ideal.matmul_constant_zero_apply dot_S2000x256_S256x256_S2000x256_1_0_0_1_n_n none l r (ix2 p q)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k :=
    funext fun a => Fin.ext (by
      match a with
      | ⟨0, _⟩ => exact lhs256_0 _ _
      | ⟨1, _⟩ => exact (lhs256_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q :=
    funext fun a => Fin.ext (by
      match a with
      | ⟨0, _⟩ => exact (rhs256_0 _ _).trans hk
      | ⟨1, _⟩ => exact rhs256_1 _ _)
  rw [el, er]

/-- The first body's first output: the block's rows times the first weight matrix. -/
theorem pay0_2_apply (x : Vec Ideal S2000x128 .f32) (w : Vec Ideal S128x256 .f32) (p : Fin 2000) (q : Fin 256) :
    k0_pay2 x w (ix2 p q) = ∑ k : Fin 128, x (ix2 p k) * w (ix2 k q) := by
  unfold k0_pay2 k0_pay1
  exact matmul128_apply _ _ p q

/-- The first body's second output: the block's rows times the projection matrix, the projection's row vector added. -/
theorem pay0_3_apply (x : Vec Ideal S2000x128 .f32) (w : Vec Ideal S128x256 .f32) (b : Vec Ideal S1x256 .f32) (p : Fin 2000) (q : Fin 256) :
    k0_pay3 x w b (ix2 p q) = (∑ k : Fin 128, x (ix2 p k) * w (ix2 k q)) + b (ix2 (0 : Fin 1) q) := by
  unfold k0_pay3 k0_pay1
  simp only [addf_apply, shapeCast_self, broadcastTo_1b_ab_apply]
  exact congrArg (· + b (ix2 (0 : Fin 1) q)) (matmul128_apply _ _ p q)

/-- The third body: the block's rows times the second weight matrix. -/
theorem pay2_1_apply (x : Vec Ideal S2000x256 .f32) (w : Vec Ideal S256x256 .f32) (p : Fin 2000) (q : Fin 256) :
    k2_pay1 x w (ix2 p q) = ∑ k : Fin 256, x (ix2 p k) * w (ix2 k q) := by
  unfold k2_pay1
  simp only [shapeCast_self]
  exact matmul256_apply _ _ p q

/-! ## The normalisations -/

/-- A lane sum over the 256 columns of a 2000 × 256 block, at row p. -/
theorem rowsum_apply (v : FVec Ideal S2000x256 .f32) (p : Fin 2000) :
    multiReduction .add [1] S2000 v 0x00000000#32 reduces_S2000x256_S2000 (.inl rfl) rfl (ix1 p) = ∑ k : Fin 256, v (ix2 p k) := by
  refine (Ideal.multiReduction_add_single v 0x00000000#32 reduces_S2000x256_S2000 (.inl rfl) rfl (ix1 p)).trans ?_
  exact Finset.sum_congr rfl fun k _ => congrArg v (funext fun a => Fin.ext (by match a with | ⟨0, _⟩ => rfl | ⟨1, _⟩ => rfl))

/-- A row sum kept as a column, divided by 256 and laid back along the row: the row's sum over 256, at every column. -/
theorem rowmean_apply (v : FVec Ideal S2000x256 .f32) (p : Fin 2000) (q : Fin 256) :
    broadcastTo S2000x256 (divf (shapeCast S2000x1 (multiReduction .add [1] S2000 v 0x00000000#32 reduces_S2000x256_S2000 (.inl rfl) rfl) shapeCasts_S2000_S2000x1)
        (broadcast S2000x1 (Scalar.ofBits .f32 0x43800000#32))) broadcasts_S2000x1_S2000x256 (ix2 p q)
      = Ideal.div (∑ k : Fin 256, v (ix2 p k)) w256 := by
  rw [Cert.Keepdims.broadcastTo_a1_ab_apply]
  show Ideal.div (shapeCast S2000x1 _ shapeCasts_S2000_S2000x1 (ix2 p (0 : Fin 1))) _ = _
  rw [Cert.Keepdims.shapeCast_a_a1_apply, rowsum_apply]
  rfl

/-- The reciprocal standard deviation of row p, laid along the row: from the deviations d, the row sum of d·d kept as
    a column, divided by 256, ε added, the reciprocal square root taken. -/
theorem rowrstd_apply (d : FVec Ideal S2000x256 .f32) (p : Fin 2000) (q : Fin 256) :
    broadcastTo S2000x256 (rsqrt (addf (divf (shapeCast S2000x1 (multiReduction .add [1] S2000 (mulf d d) 0x00000000#32 reduces_S2000x256_S2000 (.inl rfl) rfl) shapeCasts_S2000_S2000x1)
        (broadcast S2000x1 (Scalar.ofBits .f32 0x43800000#32))) (broadcast S2000x1 (Scalar.ofBits .f32 0x3727C5AC#32)))) broadcasts_S2000x1_S2000x256 (ix2 p q)
      = Ideal.rsqrt (Ideal.div (∑ k : Fin 256, d (ix2 p k) * d (ix2 p k)) w256 + weps) := by
  rw [Cert.Keepdims.broadcastTo_a1_ab_apply]
  show Ideal.rsqrt (Ideal.div (shapeCast S2000x1 _ shapeCasts_S2000_S2000x1 (ix2 p (0 : Fin 1))) _ + _) = _
  rw [Cert.Keepdims.shapeCast_a_a1_apply, rowsum_apply]
  rfl

/-- The deviation of entry (p, k) from its row's mean. -/
theorem dev_apply (x : FVec Ideal S2000x256 .f32) (p : Fin 2000) (k : Fin 256) :
    (subf x (broadcastTo S2000x256 (divf (shapeCast S2000x1 (multiReduction .add [1] S2000 x 0x00000000#32 reduces_S2000x256_S2000 (.inl rfl) rfl) shapeCasts_S2000_S2000x1) (broadcast S2000x1 (Scalar.ofBits .f32 0x43800000#32))) broadcasts_S2000x1_S2000x256)) (ix2 p k) = x (ix2 p k) - mean (R := 2000) x p := by
  rw [subf_apply, rowmean_apply x p k]
  rfl

/-- The reciprocal standard deviation of row p of the block, from the block itself. -/
theorem rstd_apply (x : FVec Ideal S2000x256 .f32) (p : Fin 2000) (q : Fin 256) :
    (broadcastTo S2000x256 (rsqrt (addf (divf (shapeCast S2000x1 (multiReduction .add [1] S2000 (mulf (subf x (broadcastTo S2000x256 (divf (shapeCast S2000x1 (multiReduction .add [1] S2000 x 0x00000000#32 reduces_S2000x256_S2000 (.inl rfl) rfl) shapeCasts_S2000_S2000x1) (broadcast S2000x1 (Scalar.ofBits .f32 0x43800000#32))) broadcasts_S2000x1_S2000x256)) (subf x (broadcastTo S2000x256 (divf (shapeCast S2000x1 (multiReduction .add [1] S2000 x 0x00000000#32 reduces_S2000x256_S2000 (.inl rfl) rfl) shapeCasts_S2000_S2000x1) (broadcast S2000x1 (Scalar.ofBits .f32 0x43800000#32))) broadcasts_S2000x1_S2000x256))) 0x00000000#32 reduces_S2000x256_S2000 (.inl rfl) rfl) shapeCasts_S2000_S2000x1) (broadcast S2000x1 (Scalar.ofBits .f32 0x43800000#32))) (broadcast S2000x1 (Scalar.ofBits .f32 0x3727C5AC#32)))) broadcasts_S2000x1_S2000x256) (ix2 p q) = Ideal.rsqrt (var (R := 2000) x p + weps) := by
  rw [rowrstd_apply]
  unfold var
  exact congrArg (fun s => Ideal.rsqrt (Ideal.div s w256 + weps)) (Finset.sum_congr rfl fun k _ => by rw [dev_apply])

/-- The second body: the layer normalisation of row p of the block, clamped below at zero. -/
theorem k1_pay1_apply (x : Vec Ideal S2000x256 .f32) (g b : Vec Ideal S1x256 .f32) (p : Fin 2000) (q : Fin 256) :
    k1_pay1 x g b (ix2 p q)
      = max (lnrow (R := 2000) x (fun q => g (ix2 (0 : Fin 1) q)) (fun q => b (ix2 (0 : Fin 1) q)) p q) w0 := by
  unfold k1_pay1
  simp only [shapeCast_self, maximumf_apply, addf_apply, mulf_apply, broadcast_apply, broadcastTo_1b_ab_apply]
  rw [rstd_apply x p q, dev_apply x p q]
  rfl

/-- The fourth body: the layer normalisation of row p of the block, the residual block's entry added, clamped below at zero. -/
theorem k3_pay1_apply (x : Vec Ideal S2000x256 .f32) (g b : Vec Ideal S1x256 .f32) (idn : Vec Ideal S2000x256 .f32) (p : Fin 2000) (q : Fin 256) :
    k3_pay1 x g b idn (ix2 p q)
      = max (lnrow (R := 2000) x (fun q => g (ix2 (0 : Fin 1) q)) (fun q => b (ix2 (0 : Fin 1) q)) p q + idn (ix2 p q)) w0 := by
  unfold k3_pay1
  simp only [shapeCast_self, maximumf_apply, addf_apply, mulf_apply, broadcast_apply, broadcastTo_1b_ab_apply]
  rw [rstd_apply x p q, dev_apply x p q]
  rfl

end Cert.KernelIdeal.Pay

end
-- ==== Proof.Reg0.lean ====
/-
  Region 0 (the two first-layer matrix products), read as whole arrays.  Each of the 25 grid points takes rows
  2000·t … 2000·t + 1999 of x, the whole of both weight matrices and the projection's row vector, and writes the same
  rows of both outputs.  Row r of a matrix product depends on row r of x only, so the 25 blocks written back are the
  restrictions of x·W1 and of x·Wp + bp to their rows, and together they cover all 50000 rows.
-/
import proofs.«177957_j2018634629420_1_alg».proof.Proof.Gen.KernelIdeal.Frame
import proofs.«177957_j2018634629420_1_alg».proof.Proof.Pay
import Idealize.ShloMosaic.Lib.Pipeline.Value

set_option maxRecDepth 16384

noncomputable section

namespace Cert.KernelIdeal.Reg0

open Cert.KernelIdeal Cert.KernelIdeal.Gen Cert.KernelIdeal.Pay Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Window 0's block index at point t, decided over the grid: block row t, block column 0. -/
theorem idx_0 : ∀ t : Fin cfg0.N, win0_0.index t (0 : Fin 2) = t.val ∧ win0_0.index t (1 : Fin 2) = 0 :=
  (by decide +kernel : ∀ t : Fin grid0.N, _)

/-- Window 1's block index at point t, decided over the grid: always block (0, 0). -/
theorem idx_1 : ∀ t : Fin cfg0.N, win0_1.index t (0 : Fin 2) = 0 ∧ win0_1.index t (1 : Fin 2) = 0 :=
  (by decide +kernel : ∀ t : Fin grid0.N, _)

/-- Window 2's block index at point t, decided over the grid: always block (0, 0). -/
theorem idx_2 : ∀ t : Fin cfg0.N, win0_2.index t (0 : Fin 2) = 0 ∧ win0_2.index t (1 : Fin 2) = 0 :=
  (by decide +kernel : ∀ t : Fin grid0.N, _)

/-- Window 3's block index at point t, decided over the grid: always block (0, 0). -/
theorem idx_3 : ∀ t : Fin cfg0.N, win0_3.index t (0 : Fin 2) = 0 ∧ win0_3.index t (1 : Fin 2) = 0 :=
  (by decide +kernel : ∀ t : Fin grid0.N, _)

/-- Window 4's block index at point t, decided over the grid: block row t, block column 0. -/
theorem idx_4 : ∀ t : Fin cfg0.N, win0_4.index t (0 : Fin 2) = t.val ∧ win0_4.index t (1 : Fin 2) = 0 :=
  (by decide +kernel : ∀ t : Fin grid0.N, _)

/-- Window 5's block index at point t, decided over the grid: block row t, block column 0. -/
theorem idx_5 : ∀ t : Fin cfg0.N, win0_5.index t (0 : Fin 2) = t.val ∧ win0_5.index t (1 : Fin 2) = 0 :=
  (by decide +kernel : ∀ t : Fin grid0.N, _)

/-- Window 0's block at point t, entry by entry: rows 2000·t … 2000·t + 1999 of its array. -/
theorem iblk_0_apply (c : Dev nD) (t : Fin cfg0.N) (y : S2000x128.Idx) (i : S50000x128.Idx)
    (h0 : (i 0).val = 2000 * t.val + (y 0).val) (h1 : (i 1).val = (y 1).val) :
    (iblk0 V c 0 t : Vec Ideal S2000x128 .f32) y = (V c main_arg0 : S50000x128.Idx → EReal) i := by
  have e := idx_0 t
  unfold iblk0
  rw [View.read_apply]
  show (V c main_arg0 : S50000x128.Idx → EReal) _ = V c main_arg0 _
  congr 1
  funext a
  apply Fin.ext
  match a with
  | ⟨0, _⟩ => show win0_0.index t (0 : Fin 2) * 2000 + 1 * (y 0).val = (i 0).val; rw [e.1, h0]; omega
  | ⟨1, _⟩ => show win0_0.index t (1 : Fin 2) * 128 + 1 * (y 1).val = (i 1).val; rw [e.2, h1]; omega

/-- Window 1's block at point t, entry by entry: the whole array, at every point. -/
theorem iblk_1_apply (c : Dev nD) (t : Fin cfg0.N) (y : S128x256.Idx) (i : S128x256.Idx)
    (h0 : (i 0).val = (y 0).val) (h1 : (i 1).val = (y 1).val) :
    (iblk0 V c 1 t : Vec Ideal S128x256 .f32) y = (V c main_arg2 : S128x256.Idx → EReal) i := by
  have e := idx_1 t
  unfold iblk0
  rw [View.read_apply]
  show (V c main_arg2 : S128x256.Idx → EReal) _ = V c main_arg2 _
  congr 1
  funext a
  apply Fin.ext
  match a with
  | ⟨0, _⟩ => show win0_1.index t (0 : Fin 2) * 128 + 1 * (y 0).val = (i 0).val; rw [e.1, h0]; omega
  | ⟨1, _⟩ => show win0_1.index t (1 : Fin 2) * 256 + 1 * (y 1).val = (i 1).val; rw [e.2, h1]; omega

/-- Window 2's block at point t, entry by entry: the whole array, at every point. -/
theorem iblk_2_apply (c : Dev nD) (t : Fin cfg0.N) (y : S128x256.Idx) (i : S128x256.Idx)
    (h0 : (i 0).val = (y 0).val) (h1 : (i 1).val = (y 1).val) :
    (iblk0 V c 2 t : Vec Ideal S128x256 .f32) y = (V c main_arg10 : S128x256.Idx → EReal) i := by
  have e := idx_2 t
  unfold iblk0
  rw [View.read_apply]
  show (V c main_arg10 : S128x256.Idx → EReal) _ = V c main_arg10 _
  congr 1
  funext a
  apply Fin.ext
  match a with
  | ⟨0, _⟩ => show win0_2.index t (0 : Fin 2) * 128 + 1 * (y 0).val = (i 0).val; rw [e.1, h0]; omega
  | ⟨1, _⟩ => show win0_2.index t (1 : Fin 2) * 256 + 1 * (y 1).val = (i 1).val; rw [e.2, h1]; omega

/-- Window 3's block at point t, entry by entry: the whole array, at every point. -/
theorem iblk_3_apply (c : Dev nD) (t : Fin cfg0.N) (y : S1x256.Idx) (i : S1x256.Idx)
    (h0 : (i 0).val = (y 0).val) (h1 : (i 1).val = (y 1).val) :
    (iblk0 V c 3 t : Vec Ideal S1x256 .f32) y = (V c main_v11 : S1x256.Idx → EReal) i := by
  have e := idx_3 t
  unfold iblk0
  rw [View.read_apply]
  show (V c main_v11 : S1x256.Idx → EReal) _ = V c main_v11 _
  congr 1
  funext a
  apply Fin.ext
  match a with
  | ⟨0, _⟩ => show win0_3.index t (0 : Fin 2) * 1 + 1 * (y 0).val = (i 0).val; rw [e.1, h0]; omega
  | ⟨1, _⟩ => show win0_3.index t (1 : Fin 2) * 256 + 1 * (y 1).val = (i 1).val; rw [e.2, h1]; omega

/-- An entry of the output array is in point t's block iff each coordinate is in the block's range on its axis. -/
theorem mem_blk_4 (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v16_0).slice (win0_4.rect t)).set ↔ _
  rw [View.set_slice_whole, Rect.mem_set_unit]
  exact Iff.rfl

/-- Every row r of the output array lies in the block of point r / 2000: the 25 blocks of 2000 rows tile the 50000 rows. -/
theorem cover_4 (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  have hN : cfg0.N = 25 := N_0
  have ht : (i 0).val / 2000 < cfg0.N := by rw [hN]; omega
  refine ⟨⟨(i 0).val / 2000, ht⟩, flush0_4 _, ?_⟩
  rw [mem_blk_4]
  have e := idx_4 ⟨(i 0).val / 2000, ht⟩
  intro a
  match a with
  | ⟨0, _⟩ =>
    show win0_4.index ⟨(i 0).val / 2000, ht⟩ (0 : Fin 2) * 2000 ≤ (i 0).val ∧ (i 0).val < win0_4.index ⟨(i 0).val / 2000, ht⟩ (0 : Fin 2) * 2000 + 2000
    rw [e.1]; show (i 0).val / 2000 * 2000 ≤ (i 0).val ∧ (i 0).val < (i 0).val / 2000 * 2000 + 2000; omega
  | ⟨1, _⟩ =>
    show win0_4.index ⟨(i 0).val / 2000, ht⟩ (1 : Fin 2) * 256 ≤ (i 1).val ∧ (i 1).val < win0_4.index ⟨(i 0).val / 2000, ht⟩ (1 : Fin 2) * 256 + 256
    rw [e.2]; omega

/-- Entry (p, q) of point t's output block is entry (2000·t + p, q) of the array. -/
theorem emb_4 (t : Fin cfg0.N) (p : Fin 2000) (q : Fin 256) :
    ((((cfg0.win 4).blk t).view.emb (ix2 p q) : S50000x256.Idx) 0).val = 2000 * t.val + p.val
    ∧ ((((cfg0.win 4).blk t).view.emb (ix2 p q) : S50000x256.Idx) 1).val = q.val := by
  have e := idx_4 t
  constructor
  · show win0_4.index t (0 : Fin 2) * 2000 + 1 * p.val = _; rw [e.1]; omega
  · show win0_4.index t (1 : Fin 2) * 256 + 1 * q.val = _; rw [e.2]; omega

/-- An entry of the output array is in point t's block iff each coordinate is in the block's range on its axis. -/
theorem mem_blk_5 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v16_1).slice (win0_5.rect t)).set ↔ _
  rw [View.set_slice_whole, Rect.mem_set_unit]
  exact Iff.rfl

/-- Every row r of the output array lies in the block of point r / 2000: the 25 blocks of 2000 rows tile the 50000 rows. -/
theorem cover_5 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  have ht : (i 0).val / 2000 < cfg0.N := by rw [hN]; omega
  refine ⟨⟨(i 0).val / 2000, ht⟩, flush0_5 _, ?_⟩
  rw [mem_blk_5]
  have e := idx_5 ⟨(i 0).val / 2000, ht⟩
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e.1]; show (i 0).val / 2000 * 2000 ≤ (i 0).val ∧ (i 0).val < (i 0).val / 2000 * 2000 + 2000; omega
  | ⟨1, _⟩ =>
    show win0_5.index ⟨(i 0).val / 2000, ht⟩ (1 : Fin 2) * 256 ≤ (i 1).val ∧ (i 1).val < win0_5.index ⟨(i 0).val / 2000, ht⟩ (1 : Fin 2) * 256 + 256
    rw [e.2]; omega

/-- Entry (p, q) of point t's output block is entry (2000·t + p, q) of the array. -/
theorem emb_5 (t : Fin cfg0.N) (p : Fin 2000) (q : Fin 256) :
    ((((cfg0.win 5).blk t).view.emb (ix2 p q) : S50000x256.Idx) 0).val = 2000 * t.val + p.val
    ∧ ((((cfg0.win 5).blk t).view.emb (ix2 p q) : S50000x256.Idx) 1).val = q.val := by
  have e := idx_5 t
  constructor
  · show win0_5.index t (0 : Fin 2) * 2000 + 1 * p.val = _; rw [e.1]; omega
  · show win0_5.index t (1 : Fin 2) * 256 + 1 * q.val = _; rw [e.2]; omega

/-- What point t writes back into the first output is block t of x·W1. -/
theorem flushed_4 (c : Dev nD) (t : Fin cfg0.N) :
    (dat0 V c).flushed 4 t = ((cfg0.win 4).blk t).view.read (Elt Ideal)
      (mm (R := 50000) (K := 128) (C := 256) (V c main_arg0) (V c main_arg2)) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x256) hz]
  funext j
  obtain ⟨p, q, rfl⟩ : ∃ (p : Fin 2000) (q : Fin 256), j = ix2 p q := ⟨j 0, j 1, eq_ix2 j⟩
  obtain ⟨he0, he1⟩ := emb_4 t p q
  show k0_pay2 (iblk0 V c 0 t) (iblk0 V c 1 t) (ix2 p q)
    = mm (R := 50000) (K := 128) (C := 256) (V c main_arg0) (V c main_arg2) (((cfg0.win 4).blk t).view.emb (ix2 p q) : S50000x256.Idx)
  refine (pay0_2_apply (iblk0 V c 0 t) (iblk0 V c 1 t) p q).trans ?_
  unfold mm
  beta_reduce
  refine Finset.sum_congr rfl fun k _ => ?_
  rw [iblk_0_apply V c t (ix2 p k) (ix2 ((((cfg0.win 4).blk t).view.emb (ix2 p q) : S50000x256.Idx) 0) k) he0 rfl,
    iblk_1_apply V c t (ix2 k q) (ix2 k ((((cfg0.win 4).blk t).view.emb (ix2 p q) : S50000x256.Idx) 1)) rfl he1]

/-- So the first output array ends holding x·W1. -/
theorem final_4 (c : Dev nD) : (dat0 V c).arrAt 4 cfg0.N = mm (R := 50000) (K := 128) (C := 256) (V c main_arg0) (V c main_arg2) :=
  (dat0 V c).arrAt_eq_of_cover 4 _ (fun t _ => flushed_4 V c t) cover_4

/-- What point t writes back into the second output is block t of x·Wp + bp. -/
theorem flushed_5 (c : Dev nD) (b : (⟨1, ![256]⟩ : Shape).Idx → EReal)
    (hb : ∀ q : Fin 256, (V c main_v11 : S1x256.Idx → EReal) (ix2 (0 : Fin 1) q) = b (ix1 q)) (t : Fin cfg0.N) :
    (dat0 V c).flushed 5 t = ((cfg0.win 5).blk t).view.read (Elt Ideal)
      (mmb (R := 50000) (K := 128) (C := 256) (V c main_arg0) (V c main_arg10) b) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  obtain ⟨he0, he1⟩ := emb_5 t p q
  show k0_pay3 (iblk0 V c 0 t) (iblk0 V c 2 t) (iblk0 V c 3 t) (ix2 p q)
    = mmb (R := 50000) (K := 128) (C := 256) (V c main_arg0) (V c main_arg10) b (((cfg0.win 5).blk t).view.emb (ix2 p q) : S50000x256.Idx)
  refine (pay0_3_apply (iblk0 V c 0 t) (iblk0 V c 2 t) (iblk0 V c 3 t) p q).trans ?_
  unfold mmb
  beta_reduce
  have hq : ((((cfg0.win 5).blk t).view.emb (ix2 p q) : S50000x256.Idx) 1) = q := Fin.ext he1
  rw [iblk_3_apply V c t (ix2 (0 : Fin 1) q) (ix2 (0 : Fin 1) q) rfl rfl, hb q, hq]
  refine congrArg (· + b (ix1 q)) (Finset.sum_congr rfl fun k _ => ?_)
  rw [iblk_0_apply V c t (ix2 p k) (ix2 ((((cfg0.win 5).blk t).view.emb (ix2 p q) : S50000x256.Idx) 0) k) he0 rfl,
    iblk_2_apply V c t (ix2 k q) (ix2 k q) rfl rfl]

/-- So the second output array ends holding x·Wp + bp. -/
theorem final_5 (c : Dev nD) (b : (⟨1, ![256]⟩ : Shape).Idx → EReal)
    (hb : ∀ q : Fin 256, (V c main_v11 : S1x256.Idx → EReal) (ix2 (0 : Fin 1) q) = b (ix1 q)) :
    (dat0 V c).arrAt 5 cfg0.N = mmb (R := 50000) (K := 128) (C := 256) (V c main_arg0) (V c main_arg10) b :=
  (dat0 V c).arrAt_eq_of_cover 5 _ (fun t _ => flushed_5 V c b hb t) cover_5

end Cert.KernelIdeal.Reg0

end
-- ==== Proof.Reg1.lean ====
/-
  Region 1 (the first layer normalisation and clamp), read as a whole array.  Each of the 25 grid points takes rows
  2000·t … 2000·t + 1999 of the aggregated features and the scale and shift vectors, and writes the same rows of the
  result.  A row's mean, variance and normalised entries depend on that row only, so the blocks written back are the
  restrictions of the whole array's normalisation to their rows, and they cover all 50000 rows.
-/
import proofs.«177957_j2018634629420_1_alg».proof.Proof.Gen.KernelIdeal.Frame
import proofs.«177957_j2018634629420_1_alg».proof.Proof.Pay
import Idealize.ShloMosaic.Lib.Pipeline.Value

set_option maxRecDepth 16384

noncomputable section

namespace Cert.KernelIdeal.Reg1

open Cert.KernelIdeal Cert.KernelIdeal.Gen Cert.KernelIdeal.Pay Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Window 0's block index at point t, decided over the grid: block row t, block column 0. -/
theorem idx_0 : ∀ t : Fin cfg1.N, win1_0.index t (0 : Fin 2) = t.val ∧ win1_0.index t (1 : Fin 2) = 0 :=
  (by decide +kernel : ∀ t : Fin grid1.N, _)

/-- Window 1's block index at point t, decided over the grid: always block (0, 0). -/
theorem idx_1 : ∀ t : Fin cfg1.N, win1_1.index t (0 : Fin 2) = 0 ∧ win1_1.index t (1 : Fin 2) = 0 :=
  (by decide +kernel : ∀ t : Fin grid1.N, _)

/-- Window 2's block index at point t, decided over the grid: always block (0, 0). -/
theorem idx_2 : ∀ t : Fin cfg1.N, win1_2.index t (0 : Fin 2) = 0 ∧ win1_2.index t (1 : Fin 2) = 0 :=
  (by decide +kernel : ∀ t : Fin grid1.N, _)

/-- Window 3's block index at point t, decided over the grid: block row t, block column 0. -/
theorem idx_3 : ∀ t : Fin cfg1.N, win1_3.index t (0 : Fin 2) = t.val ∧ win1_3.index t (1 : Fin 2) = 0 :=
  (by decide +kernel : ∀ t : Fin grid1.N, _)

/-- Window 0's block at point t, entry by entry: rows 2000·t … 2000·t + 1999 of its array. -/
theorem iblk_0_apply (c : Dev nD) (t : Fin cfg1.N) (y : S2000x256.Idx) (i : S50000x256.Idx)
    (h0 : (i 0).val = 2000 * t.val + (y 0).val) (h1 : (i 1).val = (y 1).val) :
    (iblk1 V c 0 t : Vec Ideal S2000x256 .f32) y = (V c main_v52 : S50000x256.Idx → EReal) i := by
  have e := idx_0 t
  unfold iblk1
  rw [View.read_apply]
  show (V c main_v52 : S50000x256.Idx → EReal) _ = V c main_v52 _
  congr 1
  funext a
  apply Fin.ext
  match a with
  | ⟨0, _⟩ => show win1_0.index t (0 : Fin 2) * 2000 + 1 * (y 0).val = (i 0).val; rw [e.1, h0]; omega
  | ⟨1, _⟩ => show win1_0.index t (1 : Fin 2) * 256 + 1 * (y 1).val = (i 1).val; rw [e.2, h1]; omega

/-- Window 1's block at point t, entry by entry: the whole array, at every point. -/
theorem iblk_1_apply (c : Dev nD) (t : Fin cfg1.N) (y : S1x256.Idx) (i : S1x256.Idx)
    (h0 : (i 0).val = (y 0).val) (h1 : (i 1).val = (y 1).val) :
    (iblk1 V c 1 t : Vec Ideal S1x256 .f32) y = (V c main_v12 : S1x256.Idx → EReal) i := by
  have e := idx_1 t
  unfold iblk1
  rw [View.read_apply]
  show (V c main_v12 : S1x256.Idx → EReal) _ = V c main_v12 _
  congr 1
  funext a
  apply Fin.ext
  match a with
  | ⟨0, _⟩ => show win1_1.index t (0 : Fin 2) * 1 + 1 * (y 0).val = (i 0).val; rw [e.1, h0]; omega
  | ⟨1, _⟩ => show win1_1.index t (1 : Fin 2) * 256 + 1 * (y 1).val = (i 1).val; rw [e.2, h1]; omega

/-- Window 2's block at point t, entry by entry: the whole array, at every point. -/
theorem iblk_2_apply (c : Dev nD) (t : Fin cfg1.N) (y : S1x256.Idx) (i : S1x256.Idx)
    (h0 : (i 0).val = (y 0).val) (h1 : (i 1).val = (y 1).val) :
    (iblk1 V c 2 t : Vec Ideal S1x256 .f32) y = (V c main_v13 : S1x256.Idx → EReal) i := by
  have e := idx_2 t
  unfold iblk1
  rw [View.read_apply]
  show (V c main_v13 : S1x256.Idx → EReal) _ = V c main_v13 _
  congr 1
  funext a
  apply Fin.ext
  match a with
  | ⟨0, _⟩ => show win1_2.index t (0 : Fin 2) * 1 + 1 * (y 0).val = (i 0).val; rw [e.1, h0]; omega
  | ⟨1, _⟩ => show win1_2.index t (1 : Fin 2) * 256 + 1 * (y 1).val = (i 1).val; rw [e.2, h1]; omega

/-- An entry of the output array is in point t's block iff each coordinate is in the block's range on its axis. -/
theorem mem_blk_3 (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v53).slice (win1_3.rect t)).set ↔ _
  rw [View.set_slice_whole, Rect.mem_set_unit]
  exact Iff.rfl

/-- Every row r of the output array lies in the block of point r / 2000: the 25 blocks of 2000 rows tile the 50000 rows. -/
theorem cover_3 (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 25 := N_1
  have ht : (i 0).val / 2000 < cfg1.N := by rw [hN]; omega
  refine ⟨⟨(i 0).val / 2000, ht⟩, flush1_3 _, ?_⟩
  rw [mem_blk_3]
  have e := idx_3 ⟨(i 0).val / 2000, ht⟩
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e.1]; show (i 0).val / 2000 * 2000 ≤ (i 0).val ∧ (i 0).val < (i 0).val / 2000 * 2000 + 2000; omega
  | ⟨1, _⟩ =>
    show win1_3.index ⟨(i 0).val / 2000, ht⟩ (1 : Fin 2) * 256 ≤ (i 1).val ∧ (i 1).val < win1_3.index ⟨(i 0).val / 2000, ht⟩ (1 : Fin 2) * 256 + 256
    rw [e.2]; omega

/-- Entry (p, q) of point t's output block is entry (2000·t + p, q) of the array. -/
theorem emb_3 (t : Fin cfg1.N) (p : Fin 2000) (q : Fin 256) :
    ((((cfg1.win 3).blk t).view.emb (ix2 p q) : S50000x256.Idx) 0).val = 2000 * t.val + p.val
    ∧ ((((cfg1.win 3).blk t).view.emb (ix2 p q) : S50000x256.Idx) 1).val = q.val := by
  have e := idx_3 t
  constructor
  · show win1_3.index t (0 : Fin 2) * 2000 + 1 * p.val = _; rw [e.1]; omega
  · show win1_3.index t (1 : Fin 2) * 256 + 1 * q.val = _; rw [e.2]; omega

/-- What point t writes back is block t of the whole array's row-by-row normalisation: the normalised row depends on
    that row only, and the scale and shift vectors are the same at every point. -/
theorem flushed_3 (c : Dev nD) (g b : (⟨1, ![256]⟩ : Shape).Idx → EReal)
    (hg : ∀ q : Fin 256, (V c main_v12 : S1x256.Idx → EReal) (ix2 (0 : Fin 1) q) = g (ix1 q))
    (hb : ∀ q : Fin 256, (V c main_v13 : S1x256.Idx → EReal) (ix2 (0 : Fin 1) q) = b (ix1 q)) (t : Fin cfg1.N) :
    (dat1 V c).flushed 3 t = ((cfg1.win 3).blk t).view.read (Elt Ideal)
      (lnrelu (R := 50000) (V c main_v52) g b) := by
  show (cfg1.win 3).cut (grid1.coords t) ((dat1 V c).after 3 t) = _
  rw [after1_3]
  unfold out1_3
  rw [View.canon_unit_zero hz]
  simp only [View.ld_unit_zero (S := S2000x256) hz, View.ld_unit_zero (S := S1x256) hz]
  funext j
  obtain ⟨p, q, rfl⟩ : ∃ (p : Fin 2000) (q : Fin 256), j = ix2 p q := ⟨j 0, j 1, eq_ix2 j⟩
  obtain ⟨he0, he1⟩ := emb_3 t p q
  show k1_pay1 (iblk1 V c 0 t) (iblk1 V c 1 t) (iblk1 V c 2 t) (ix2 p q) = lnrelu (R := 50000) (V c main_v52) g b (((cfg1.win 3).blk t).view.emb (ix2 p q) : S50000x256.Idx)
  refine (k1_pay1_apply (iblk1 V c 0 t) (iblk1 V c 1 t) (iblk1 V c 2 t) p q).trans ?_
  unfold lnrelu
  beta_reduce
  have hq : ((((cfg1.win 3).blk t).view.emb (ix2 p q) : S50000x256.Idx) 1) = q := Fin.ext he1
  have hgg : (fun q : Fin 256 => (iblk1 V c 1 t : Vec Ideal S1x256 .f32) (ix2 (0 : Fin 1) q)) = fun q => g (ix1 q) :=
    funext fun q => (iblk_1_apply V c t (ix2 (0 : Fin 1) q) (ix2 (0 : Fin 1) q) rfl rfl).trans (hg q)
  have hbb : (fun q : Fin 256 => (iblk1 V c 2 t : Vec Ideal S1x256 .f32) (ix2 (0 : Fin 1) q)) = fun q => b (ix1 q) :=
    funext fun q => (iblk_2_apply V c t (ix2 (0 : Fin 1) q) (ix2 (0 : Fin 1) q) rfl rfl).trans (hb q)
  rw [hgg, hbb, hq]
  have hrow := lnrow_congr (iblk1 V c 0 t : Vec Ideal S2000x256 .f32) (V c main_v52 : S50000x256.Idx → EReal)
    (fun q => g (ix1 q)) (fun q => b (ix1 q)) p ((((cfg1.win 3).blk t).view.emb (ix2 p q) : S50000x256.Idx) 0)
    (fun k => iblk_0_apply V c t (ix2 p k) (ix2 ((((cfg1.win 3).blk t).view.emb (ix2 p q) : S50000x256.Idx) 0) k) he0 rfl) q
  rw [hrow]

/-- So the output array ends holding the normalisation of every row clamped below at zero. -/
theorem final_3 (c : Dev nD) (g b : (⟨1, ![256]⟩ : Shape).Idx → EReal)
    (hg : ∀ q : Fin 256, (V c main_v12 : S1x256.Idx → EReal) (ix2 (0 : Fin 1) q) = g (ix1 q))
    (hb : ∀ q : Fin 256, (V c main_v13 : S1x256.Idx → EReal) (ix2 (0 : Fin 1) q) = b (ix1 q)) :
    (dat1 V c).arrAt 3 cfg1.N = lnrelu (R := 50000) (V c main_v52) g b :=
  (dat1 V c).arrAt_eq_of_cover 3 _ (fun t _ => flushed_3 V c g b hg hb t) cover_3

end Cert.KernelIdeal.Reg1

end
-- ==== Proof.Reg2.lean ====
/-
  Region 2 (the second-layer matrix product), read as a whole array.  Each of the 25 grid points takes rows
  2000·t … 2000·t + 1999 of the activations and the whole weight matrix, and writes the same rows of the product.
  Row r of the product depends on row r of the activations only, so the blocks written back are the restrictions of
  the whole product to their rows, and they cover all 50000 rows.
-/
import proofs.«177957_j2018634629420_1_alg».proof.Proof.Gen.KernelIdeal.Frame
import proofs.«177957_j2018634629420_1_alg».proof.Proof.Pay
import Idealize.ShloMosaic.Lib.Pipeline.Value

set_option maxRecDepth 16384

noncomputable section

namespace Cert.KernelIdeal.Reg2

open Cert.KernelIdeal Cert.KernelIdeal.Gen Cert.KernelIdeal.Pay Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Window 0's block index at point t, decided over the grid: block row t, block column 0. -/
theorem idx_0 : ∀ t : Fin cfg2.N, win2_0.index t (0 : Fin 2) = t.val ∧ win2_0.index t (1 : Fin 2) = 0 :=
  (by decide +kernel : ∀ t : Fin grid2.N, _)

/-- Window 1's block index at point t, decided over the grid: always block (0, 0). -/
theorem idx_1 : ∀ t : Fin cfg2.N, win2_1.index t (0 : Fin 2) = 0 ∧ win2_1.index t (1 : Fin 2) = 0 :=
  (by decide +kernel : ∀ t : Fin grid2.N, _)

/-- Window 2's block index at point t, decided over the grid: block row t, block column 0. -/
theorem idx_2 : ∀ t : Fin cfg2.N, win2_2.index t (0 : Fin 2) = t.val ∧ win2_2.index t (1 : Fin 2) = 0 :=
  (by decide +kernel : ∀ t : Fin grid2.N, _)

/-- Window 0's block at point t, entry by entry: rows 2000·t … 2000·t + 1999 of its array. -/
theorem iblk_0_apply (c : Dev nD) (t : Fin cfg2.N) (y : S2000x256.Idx) (i : S50000x256.Idx)
    (h0 : (i 0).val = 2000 * t.val + (y 0).val) (h1 : (i 1).val = (y 1).val) :
    (iblk2 V c 0 t : Vec Ideal S2000x256 .f32) y = (V c main_v53 : S50000x256.Idx → EReal) i := by
  have e := idx_0 t
  unfold iblk2
  rw [View.read_apply]
  show (V c main_v53 : S50000x256.Idx → EReal) _ = V c main_v53 _
  congr 1
  funext a
  apply Fin.ext
  match a with
  | ⟨0, _⟩ => show win2_0.index t (0 : Fin 2) * 2000 + 1 * (y 0).val = (i 0).val; rw [e.1, h0]; omega
  | ⟨1, _⟩ => show win2_0.index t (1 : Fin 2) * 256 + 1 * (y 1).val = (i 1).val; rw [e.2, h1]; omega

/-- Window 1's block at point t, entry by entry: the whole array, at every point. -/
theorem iblk_1_apply (c : Dev nD) (t : Fin cfg2.N) (y : S256x256.Idx) (i : S256x256.Idx)
    (h0 : (i 0).val = (y 0).val) (h1 : (i 1).val = (y 1).val) :
    (iblk2 V c 1 t : Vec Ideal S256x256 .f32) y = (V c main_arg4 : S256x256.Idx → EReal) i := by
  have e := idx_1 t
  unfold iblk2
  rw [View.read_apply]
  show (V c main_arg4 : S256x256.Idx → EReal) _ = V c main_arg4 _
  congr 1
  funext a
  apply Fin.ext
  match a with
  | ⟨0, _⟩ => show win2_1.index t (0 : Fin 2) * 256 + 1 * (y 0).val = (i 0).val; rw [e.1, h0]; omega
  | ⟨1, _⟩ => show win2_1.index t (1 : Fin 2) * 256 + 1 * (y 1).val = (i 1).val; rw [e.2, h1]; omega

/-- An entry of the output array is in point t's block iff each coordinate is in the block's range on its axis. -/
theorem mem_blk_2 (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v54).slice (win2_2.rect t)).set ↔ _
  rw [View.set_slice_whole, Rect.mem_set_unit]
  exact Iff.rfl

/-- Every row r of the output array lies in the block of point r / 2000: the 25 blocks of 2000 rows tile the 50000 rows. -/
theorem cover_2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 25 := N_2
  have ht : (i 0).val / 2000 < cfg2.N := by rw [hN]; omega
  refine ⟨⟨(i 0).val / 2000, ht⟩, flush2_2 _, ?_⟩
  rw [mem_blk_2]
  have e := idx_2 ⟨(i 0).val / 2000, ht⟩
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e.1]; show (i 0).val / 2000 * 2000 ≤ (i 0).val ∧ (i 0).val < (i 0).val / 2000 * 2000 + 2000; omega
  | ⟨1, _⟩ =>
    show win2_2.index ⟨(i 0).val / 2000, ht⟩ (1 : Fin 2) * 256 ≤ (i 1).val ∧ (i 1).val < win2_2.index ⟨(i 0).val / 2000, ht⟩ (1 : Fin 2) * 256 + 256
    rw [e.2]; omega

/-- Entry (p, q) of point t's output block is entry (2000·t + p, q) of the array. -/
theorem emb_2 (t : Fin cfg2.N) (p : Fin 2000) (q : Fin 256) :
    ((((cfg2.win 2).blk t).view.emb (ix2 p q) : S50000x256.Idx) 0).val = 2000 * t.val + p.val
    ∧ ((((cfg2.win 2).blk t).view.emb (ix2 p q) : S50000x256.Idx) 1).val = q.val := by
  have e := idx_2 t
  constructor
  · show win2_2.index t (0 : Fin 2) * 2000 + 1 * p.val = _; rw [e.1]; omega
  · show win2_2.index t (1 : Fin 2) * 256 + 1 * q.val = _; rw [e.2]; omega

/-- What point t writes back is block t of the whole product. -/
theorem flushed_2 (c : Dev nD) (t : Fin cfg2.N) :
    (dat2 V c).flushed 2 t = ((cfg2.win 2).blk t).view.read (Elt Ideal)
      (mm (R := 50000) (K := 256) (C := 256) (V c main_v53) (V c main_arg4)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x256) hz]
  funext j
  obtain ⟨p, q, rfl⟩ : ∃ (p : Fin 2000) (q : Fin 256), j = ix2 p q := ⟨j 0, j 1, eq_ix2 j⟩
  obtain ⟨he0, he1⟩ := emb_2 t p q
  show k2_pay1 (iblk2 V c 0 t) (iblk2 V c 1 t) (ix2 p q)
    = mm (R := 50000) (K := 256) (C := 256) (V c main_v53) (V c main_arg4) (((cfg2.win 2).blk t).view.emb (ix2 p q) : S50000x256.Idx)
  refine (pay2_1_apply (iblk2 V c 0 t) (iblk2 V c 1 t) p q).trans ?_
  unfold mm
  beta_reduce
  refine Finset.sum_congr rfl fun k _ => ?_
  rw [iblk_0_apply V c t (ix2 p k) (ix2 ((((cfg2.win 2).blk t).view.emb (ix2 p q) : S50000x256.Idx) 0) k) he0 rfl,
    iblk_1_apply V c t (ix2 k q) (ix2 k ((((cfg2.win 2).blk t).view.emb (ix2 p q) : S50000x256.Idx) 1)) rfl he1]

/-- So the output array ends holding the whole product. -/
theorem final_2 (c : Dev nD) : (dat2 V c).arrAt 2 cfg2.N = mm (R := 50000) (K := 256) (C := 256) (V c main_v53) (V c main_arg4) :=
  (dat2 V c).arrAt_eq_of_cover 2 _ (fun t _ => flushed_2 V c t) cover_2

end Cert.KernelIdeal.Reg2

end
-- ==== Proof.Reg3.lean ====
/-
  Region 3 (the second layer normalisation, the residual and the clamp), read as a whole array.  Each of the 25 grid
  points takes rows 2000·t … 2000·t + 1999 of the aggregated features and of the residual, and the scale and shift
  vectors, and writes the same rows of the result.  A row's normalisation depends on that row only and the residual is
  added entry by entry, so the blocks written back are the restrictions of the whole-array result to their rows, and
  they cover all 50000 rows.
-/
import proofs.«177957_j2018634629420_1_alg».proof.Proof.Gen.KernelIdeal.Frame
import proofs.«177957_j2018634629420_1_alg».proof.Proof.Pay
import Idealize.ShloMosaic.Lib.Pipeline.Value

set_option maxRecDepth 16384

noncomputable section

namespace Cert.KernelIdeal.Reg3

open Cert.KernelIdeal Cert.KernelIdeal.Gen Cert.KernelIdeal.Pay Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Window 0's block index at point t, decided over the grid: block row t, block column 0. -/
theorem idx_0 : ∀ t : Fin cfg3.N, win3_0.index t (0 : Fin 2) = t.val ∧ win3_0.index t (1 : Fin 2) = 0 :=
  (by decide +kernel : ∀ t : Fin grid3.N, _)

/-- Window 1's block index at point t, decided over the grid: always block (0, 0). -/
theorem idx_1 : ∀ t : Fin cfg3.N, win3_1.index t (0 : Fin 2) = 0 ∧ win3_1.index t (1 : Fin 2) = 0 :=
  (by decide +kernel : ∀ t : Fin grid3.N, _)

/-- Window 2's block index at point t, decided over the grid: always block (0, 0). -/
theorem idx_2 : ∀ t : Fin cfg3.N, win3_2.index t (0 : Fin 2) = 0 ∧ win3_2.index t (1 : Fin 2) = 0 :=
  (by decide +kernel : ∀ t : Fin grid3.N, _)

/-- Window 3's block index at point t, decided over the grid: block row t, block column 0. -/
theorem idx_3 : ∀ t : Fin cfg3.N, win3_3.index t (0 : Fin 2) = t.val ∧ win3_3.index t (1 : Fin 2) = 0 :=
  (by decide +kernel : ∀ t : Fin grid3.N, _)

/-- Window 4's block index at point t, decided over the grid: block row t, block column 0. -/
theorem idx_4 : ∀ t : Fin cfg3.N, win3_4.index t (0 : Fin 2) = t.val ∧ win3_4.index t (1 : Fin 2) = 0 :=
  (by decide +kernel : ∀ t : Fin grid3.N, _)

/-- Window 0's block at point t, entry by entry: rows 2000·t … 2000·t + 1999 of its array. -/
theorem iblk_0_apply (c : Dev nD) (t : Fin cfg3.N) (y : S2000x256.Idx) (i : S50000x256.Idx)
    (h0 : (i 0).val = 2000 * t.val + (y 0).val) (h1 : (i 1).val = (y 1).val) :
    (iblk3 V c 0 t : Vec Ideal S2000x256 .f32) y = (V c main_v90 : S50000x256.Idx → EReal) i := by
  have e := idx_0 t
  unfold iblk3
  rw [View.read_apply]
  show (V c main_v90 : S50000x256.Idx → EReal) _ = V c main_v90 _
  congr 1
  funext a
  apply Fin.ext
  match a with
  | ⟨0, _⟩ => show win3_0.index t (0 : Fin 2) * 2000 + 1 * (y 0).val = (i 0).val; rw [e.1, h0]; omega
  | ⟨1, _⟩ => show win3_0.index t (1 : Fin 2) * 256 + 1 * (y 1).val = (i 1).val; rw [e.2, h1]; omega

/-- Window 1's block at point t, entry by entry: the whole array, at every point. -/
theorem iblk_1_apply (c : Dev nD) (t : Fin cfg3.N) (y : S1x256.Idx) (i : S1x256.Idx)
    (h0 : (i 0).val = (y 0).val) (h1 : (i 1).val = (y 1).val) :
    (iblk3 V c 1 t : Vec Ideal S1x256 .f32) y = (V c main_v14 : S1x256.Idx → EReal) i := by
  have e := idx_1 t
  unfold iblk3
  rw [View.read_apply]
  show (V c main_v14 : S1x256.Idx → EReal) _ = V c main_v14 _
  congr 1
  funext a
  apply Fin.ext
  match a with
  | ⟨0, _⟩ => show win3_1.index t (0 : Fin 2) * 1 + 1 * (y 0).val = (i 0).val; rw [e.1, h0]; omega
  | ⟨1, _⟩ => show win3_1.index t (1 : Fin 2) * 256 + 1 * (y 1).val = (i 1).val; rw [e.2, h1]; omega

/-- Window 2's block at point t, entry by entry: the whole array, at every point. -/
theorem iblk_2_apply (c : Dev nD) (t : Fin cfg3.N) (y : S1x256.Idx) (i : S1x256.Idx)
    (h0 : (i 0).val = (y 0).val) (h1 : (i 1).val = (y 1).val) :
    (iblk3 V c 2 t : Vec Ideal S1x256 .f32) y = (V c main_v15 : S1x256.Idx → EReal) i := by
  have e := idx_2 t
  unfold iblk3
  rw [View.read_apply]
  show (V c main_v15 : S1x256.Idx → EReal) _ = V c main_v15 _
  congr 1
  funext a
  apply Fin.ext
  match a with
  | ⟨0, _⟩ => show win3_2.index t (0 : Fin 2) * 1 + 1 * (y 0).val = (i 0).val; rw [e.1, h0]; omega
  | ⟨1, _⟩ => show win3_2.index t (1 : Fin 2) * 256 + 1 * (y 1).val = (i 1).val; rw [e.2, h1]; omega

/-- Window 3's block at point t, entry by entry: rows 2000·t … 2000·t + 1999 of its array. -/
theorem iblk_3_apply (c : Dev nD) (t : Fin cfg3.N) (y : S2000x256.Idx) (i : S50000x256.Idx)
    (h0 : (i 0).val = 2000 * t.val + (y 0).val) (h1 : (i 1).val = (y 1).val) :
    (iblk3 V c 3 t : Vec Ideal S2000x256 .f32) y = (V c main_v16_1 : S50000x256.Idx → EReal) i := by
  have e := idx_3 t
  unfold iblk3
  rw [View.read_apply]
  show (V c main_v16_1 : S50000x256.Idx → EReal) _ = V c main_v16_1 _
  congr 1
  funext a
  apply Fin.ext
  match a with
  | ⟨0, _⟩ => show win3_3.index t (0 : Fin 2) * 2000 + 1 * (y 0).val = (i 0).val; rw [e.1, h0]; omega
  | ⟨1, _⟩ => show win3_3.index t (1 : Fin 2) * 256 + 1 * (y 1).val = (i 1).val; rw [e.2, h1]; omega

/-- An entry of the output array is in point t's block iff each coordinate is in the block's range on its axis. -/
theorem mem_blk_4 (t : Fin cfg3.N) (i : S50000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v91).slice (win3_4.rect t)).set ↔ _
  rw [View.set_slice_whole, Rect.mem_set_unit]
  exact Iff.rfl

/-- Every row r of the output array lies in the block of point r / 2000: the 25 blocks of 2000 rows tile the 50000 rows. -/
theorem cover_4 (i : S50000x256.Idx) :
    ∃ t : Fin cfg3.N, (cfg3.win 4).flush t = true ∧ i ∈ ((cfg3.win 4).blk t).view.set := by
  have hi0 : (i 0).val < 50000 := (i 0).isLt
  have hi1 : (i 1).val < 256 := (i 1).isLt
  have hN : cfg3.N = 25 := N_3
  have ht : (i 0).val / 2000 < cfg3.N := by rw [hN]; omega
  refine ⟨⟨(i 0).val / 2000, ht⟩, flush3_4 _, ?_⟩
  rw [mem_blk_4]
  have e := idx_4 ⟨(i 0).val / 2000, ht⟩
  intro a
  match a with
  | ⟨0, _⟩ =>
    show win3_4.index ⟨(i 0).val / 2000, ht⟩ (0 : Fin 2) * 2000 ≤ (i 0).val ∧ (i 0).val < win3_4.index ⟨(i 0).val / 2000, ht⟩ (0 : Fin 2) * 2000 + 2000
    rw [e.1]; show (i 0).val / 2000 * 2000 ≤ (i 0).val ∧ (i 0).val < (i 0).val / 2000 * 2000 + 2000; omega
  | ⟨1, _⟩ =>
    show win3_4.index ⟨(i 0).val / 2000, ht⟩ (1 : Fin 2) * 256 ≤ (i 1).val ∧ (i 1).val < win3_4.index ⟨(i 0).val / 2000, ht⟩ (1 : Fin 2) * 256 + 256
    rw [e.2]; omega

/-- Entry (p, q) of point t's output block is entry (2000·t + p, q) of the array. -/
theorem emb_4 (t : Fin cfg3.N) (p : Fin 2000) (q : Fin 256) :
    ((((cfg3.win 4).blk t).view.emb (ix2 p q) : S50000x256.Idx) 0).val = 2000 * t.val + p.val
    ∧ ((((cfg3.win 4).blk t).view.emb (ix2 p q) : S50000x256.Idx) 1).val = q.val := by
  have e := idx_4 t
  constructor
  · show win3_4.index t (0 : Fin 2) * 2000 + 1 * p.val = _; rw [e.1]; omega
  · show win3_4.index t (1 : Fin 2) * 256 + 1 * q.val = _; rw [e.2]; omega

/-- What point t writes back is block t of the whole array's row-by-row normalisation: the normalised row depends on
    that row only, and the scale and shift vectors are the same at every point. -/
theorem flushed_4 (c : Dev nD) (g b : (⟨1, ![256]⟩ : Shape).Idx → EReal)
    (hg : ∀ q : Fin 256, (V c main_v14 : S1x256.Idx → EReal) (ix2 (0 : Fin 1) q) = g (ix1 q))
    (hb : ∀ q : Fin 256, (V c main_v15 : S1x256.Idx → EReal) (ix2 (0 : Fin 1) q) = b (ix1 q)) (t : Fin cfg3.N) :
    (dat3 V c).flushed 4 t = ((cfg3.win 4).blk t).view.read (Elt Ideal)
      (lnres (R := 50000) (V c main_v90) g b (V c main_v16_1)) := by
  show (cfg3.win 4).cut (grid3.coords t) ((dat3 V c).after 4 t) = _
  rw [after3_4]
  unfold out3_4
  rw [View.canon_unit_zero hz]
  simp only [View.ld_unit_zero (S := S2000x256) hz, View.ld_unit_zero (S := S1x256) hz]
  funext j
  obtain ⟨p, q, rfl⟩ : ∃ (p : Fin 2000) (q : Fin 256), j = ix2 p q := ⟨j 0, j 1, eq_ix2 j⟩
  obtain ⟨he0, he1⟩ := emb_4 t p q
  show k3_pay1 (iblk3 V c 0 t) (iblk3 V c 1 t) (iblk3 V c 2 t) (iblk3 V c 3 t) (ix2 p q) = lnres (R := 50000) (V c main_v90) g b (V c main_v16_1) (((cfg3.win 4).blk t).view.emb (ix2 p q) : S50000x256.Idx)
  refine (k3_pay1_apply (iblk3 V c 0 t) (iblk3 V c 1 t) (iblk3 V c 2 t) (iblk3 V c 3 t) p q).trans ?_
  unfold lnres
  beta_reduce
  have hq : ((((cfg3.win 4).blk t).view.emb (ix2 p q) : S50000x256.Idx) 1) = q := Fin.ext he1
  have hgg : (fun q : Fin 256 => (iblk3 V c 1 t : Vec Ideal S1x256 .f32) (ix2 (0 : Fin 1) q)) = fun q => g (ix1 q) :=
    funext fun q => (iblk_1_apply V c t (ix2 (0 : Fin 1) q) (ix2 (0 : Fin 1) q) rfl rfl).trans (hg q)
  have hbb : (fun q : Fin 256 => (iblk3 V c 2 t : Vec Ideal S1x256 .f32) (ix2 (0 : Fin 1) q)) = fun q => b (ix1 q) :=
    funext fun q => (iblk_2_apply V c t (ix2 (0 : Fin 1) q) (ix2 (0 : Fin 1) q) rfl rfl).trans (hb q)
  rw [hgg, hbb, hq]
  have hrow := lnrow_congr (iblk3 V c 0 t : Vec Ideal S2000x256 .f32) (V c main_v90 : S50000x256.Idx → EReal)
    (fun q => g (ix1 q)) (fun q => b (ix1 q)) p ((((cfg3.win 4).blk t).view.emb (ix2 p q) : S50000x256.Idx) 0)
    (fun k => iblk_0_apply V c t (ix2 p k) (ix2 ((((cfg3.win 4).blk t).view.emb (ix2 p q) : S50000x256.Idx) 0) k) he0 rfl) q
  rw [hrow]
  rw [iblk_3_apply V c t (ix2 p q) (((cfg3.win 4).blk t).view.emb (ix2 p q) : S50000x256.Idx) he0 he1]

/-- So the output array ends holding the normalisation of every row, the residual added, clamped below at zero. -/
theorem final_4 (c : Dev nD) (g b : (⟨1, ![256]⟩ : Shape).Idx → EReal)
    (hg : ∀ q : Fin 256, (V c main_v14 : S1x256.Idx → EReal) (ix2 (0 : Fin 1) q) = g (ix1 q))
    (hb : ∀ q : Fin 256, (V c main_v15 : S1x256.Idx → EReal) (ix2 (0 : Fin 1) q) = b (ix1 q)) :
    (dat3 V c).arrAt 4 cfg3.N = lnres (R := 50000) (V c main_v90) g b (V c main_v16_1) :=
  (dat3 V c).arrAt_eq_of_cover 4 _ (fun t _ => flushed_4 V c g b hg hb t) cover_4

end Cert.KernelIdeal.Reg3

end
-- ==== Proof.KChain.lean ====
/-
  The idealized kernel's result as one function of the argument arrays.

  Walking @main from the launch: the first stretch of host operations computes the edge endpoints, the inverse square
  roots of the degrees and the row-vector forms of the parameters; region 0 leaves x·W1 and x·Wp + bp; the second
  stretch propagates x·W1 over the graph; region 1 normalises and clamps; region 2 multiplies by W2; the third stretch
  propagates again; region 3 normalises, adds the residual and clamps.  A buffer that no later stretch or region
  writes keeps its contents, which is how each stage finds the earlier ones' results.
-/
import proofs.«177957_j2018634629420_1_alg».proof.Proof.Gen.KernelIdeal.Frame
import proofs.«177957_j2018634629420_1_alg».proof.Proof.HostOps
import proofs.«177957_j2018634629420_1_alg».proof.Proof.Reg0
import proofs.«177957_j2018634629420_1_alg».proof.Proof.Reg1
import proofs.«177957_j2018634629420_1_alg».proof.Proof.Reg2
import proofs.«177957_j2018634629420_1_alg».proof.Proof.Reg3
import Idealize.ShloMosaic.Lib.StableHlo.Run
import Idealize.ShloMosaic.Lib.ValueLayout

set_option maxRecDepth 16384

noncomputable section

namespace Cert.KernelIdeal.KChain

open Cert.KernelIdeal Cert.KernelIdeal.Gen Cert.KernelIdeal.HostOps Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## After the first stretch of host operations -/

theorem W1_arg0 (c : Dev nD) : W1 m ρ c (Proc.devRef .tc main_arg0) = (m ((c : Thread nD τ).loc main_arg0)) := by
  show StableHlo.after hostOps0 (W0 m ρ c) (Proc.devRef .tc main_arg0) = _
  after_results_simp

theorem W1_arg2 (c : Dev nD) : W1 m ρ c (Proc.devRef .tc main_arg2) = (m ((c : Thread nD τ).loc main_arg2)) := by
  show StableHlo.after hostOps0 (W0 m ρ c) (Proc.devRef .tc main_arg2) = _
  after_results_simp

theorem W1_arg3 (c : Dev nD) : W1 m ρ c (Proc.devRef .tc main_arg3) = (m ((c : Thread nD τ).loc main_arg3)) := by
  show StableHlo.after hostOps0 (W0 m ρ c) (Proc.devRef .tc main_arg3) = _
  after_results_simp

theorem W1_arg4 (c : Dev nD) : W1 m ρ c (Proc.devRef .tc main_arg4) = (m ((c : Thread nD τ).loc main_arg4)) := by
  show StableHlo.after hostOps0 (W0 m ρ c) (Proc.devRef .tc main_arg4) = _
  after_results_simp

theorem W1_arg5 (c : Dev nD) : W1 m ρ c (Proc.devRef .tc main_arg5) = (m ((c : Thread nD τ).loc main_arg5)) := by
  show StableHlo.after hostOps0 (W0 m ρ c) (Proc.devRef .tc main_arg5) = _
  after_results_simp

theorem W1_arg10 (c : Dev nD) : W1 m ρ c (Proc.devRef .tc main_arg10) = (m ((c : Thread nD τ).loc main_arg10)) := by
  show StableHlo.after hostOps0 (W0 m ρ c) (Proc.devRef .tc main_arg10) = _
  after_results_simp

theorem W1_v1 (c : Dev nD) : W1 m ρ c (Proc.devRef .tc main_v1) = rowOf (m ((c : Thread nD τ).loc main_arg1)) := by
  show StableHlo.after hostOps0 (W0 m ρ c) (Proc.devRef .tc main_v1) = _
  after_results_simp
  rfl

theorem W1_v3 (c : Dev nD) : W1 m ρ c (Proc.devRef .tc main_v3) = colOf (m ((c : Thread nD τ).loc main_arg1)) := by
  show StableHlo.after hostOps0 (W0 m ρ c) (Proc.devRef .tc main_v3) = _
  after_results_simp
  rfl

theorem W1_v10 (c : Dev nD) : W1 m ρ c (Proc.devRef .tc main_v10) = dinv (colOf (m ((c : Thread nD τ).loc main_arg1))) := by
  show StableHlo.after hostOps0 (W0 m ρ c) (Proc.devRef .tc main_v10) = _
  after_results_simp
  rfl

theorem W1_v11 (c : Dev nD) : W1 m ρ c (Proc.devRef .tc main_v11) = shapeCast S1x256 (m ((c : Thread nD τ).loc main_arg11)) shapeCasts_S256_S1x256 := by
  show StableHlo.after hostOps0 (W0 m ρ c) (Proc.devRef .tc main_v11) = _
  after_results_simp
  rfl

theorem W1_v12 (c : Dev nD) : W1 m ρ c (Proc.devRef .tc main_v12) = shapeCast S1x256 (m ((c : Thread nD τ).loc main_arg6)) shapeCasts_S256_S1x256 := by
  show StableHlo.after hostOps0 (W0 m ρ c) (Proc.devRef .tc main_v12) = _
  after_results_simp
  rfl

theorem W1_v13 (c : Dev nD) : W1 m ρ c (Proc.devRef .tc main_v13) = shapeCast S1x256 (m ((c : Thread nD τ).loc main_arg7)) shapeCasts_S256_S1x256 := by
  show StableHlo.after hostOps0 (W0 m ρ c) (Proc.devRef .tc main_v13) = _
  after_results_simp
  rfl

theorem W1_v14 (c : Dev nD) : W1 m ρ c (Proc.devRef .tc main_v14) = shapeCast S1x256 (m ((c : Thread nD τ).loc main_arg8)) shapeCasts_S256_S1x256 := by
  show StableHlo.after hostOps0 (W0 m ρ c) (Proc.devRef .tc main_v14) = _
  after_results_simp
  rfl

theorem W1_v15 (c : Dev nD) : W1 m ρ c (Proc.devRef .tc main_v15) = shapeCast S1x256 (m ((c : Thread nD τ).loc main_arg9)) shapeCasts_S256_S1x256 := by
  show StableHlo.after hostOps0 (W0 m ρ c) (Proc.devRef .tc main_v15) = _
  after_results_simp
  rfl

/-- A vector cast to a one-row matrix: entry (0, q) is entry q. -/
theorem row_cast (x : (⟨S256, .f32⟩ : BufTy).Contents (Elt Ideal)) (q : Fin 256) :
    (shapeCast S1x256 x shapeCasts_S256_S1x256 : S1x256.Idx → EReal) (ix2 (0 : Fin 1) q) = x (ix1 q) :=
  shapeCast_a_1a_apply x shapeCasts_S256_S1x256 (0 : Fin 1) q

/-! ## Region 0: the two first-layer products -/

theorem W2_v16_0 (c : Dev nD) : W2 m ρ c (Proc.devRef .tc main_v16_0) = mm (R := 50000) (K := 128) (C := 256) (m ((c : Thread nD τ).loc main_arg0)) (m ((c : Thread nD τ).loc main_arg2)) := by
  refine (W2_arr m ρ c 4).trans ((Reg0.final_4 (V1 m ρ) c).trans ?_)
  show mm (R := 50000) (K := 128) (C := 256) (W1 m ρ c (Proc.devRef .tc main_arg0)) (W1 m ρ c (Proc.devRef .tc main_arg2)) = _
  rw [W1_arg0, W1_arg2]

theorem W2_v16_1 (c : Dev nD) : W2 m ρ c (Proc.devRef .tc main_v16_1) = mmb (R := 50000) (K := 128) (C := 256) (m ((c : Thread nD τ).loc main_arg0)) (m ((c : Thread nD τ).loc main_arg10)) (m ((c : Thread nD τ).loc main_arg11)) := by
  refine (W2_arr m ρ c 5).trans ((Reg0.final_5 (V1 m ρ) c (m ((c : Thread nD τ).loc main_arg11)) (fun q => ?_)).trans ?_)
  · show (W1 m ρ c (Proc.devRef .tc main_v11) : S1x256.Idx → EReal) (ix2 (0 : Fin 1) q) = _
    rw [W1_v11]; exact row_cast _ q
  · show mmb (R := 50000) (K := 128) (C := 256) (W1 m ρ c (Proc.devRef .tc main_arg0)) (W1 m ρ c (Proc.devRef .tc main_arg10)) _ = _
    rw [W1_arg0, W1_arg10]

/-- The edge sources are still there at region 0's exit. -/
theorem W2_v1 (c : Dev nD) : W2 m ρ c (Proc.devRef .tc main_v1) = rowOf (m ((c : Thread nD τ).loc main_arg1)) :=
  calc W2 m ρ c (Proc.devRef .tc main_v1)
    _ = W1 m ρ c (Proc.devRef .tc main_v1) := W2_of_ne m ρ c main_v1 (by decide)
    _ = rowOf (m ((c : Thread nD τ).loc main_arg1)) := W1_v1 m ρ c

/-- The edge targets are still there at region 0's exit. -/
theorem W2_v3 (c : Dev nD) : W2 m ρ c (Proc.devRef .tc main_v3) = colOf (m ((c : Thread nD τ).loc main_arg1)) :=
  calc W2 m ρ c (Proc.devRef .tc main_v3)
    _ = W1 m ρ c (Proc.devRef .tc main_v3) := W2_of_ne m ρ c main_v3 (by decide)
    _ = colOf (m ((c : Thread nD τ).loc main_arg1)) := W1_v3 m ρ c

/-- The inverse square roots of the degrees are still there at region 0's exit. -/
theorem W2_v10 (c : Dev nD) : W2 m ρ c (Proc.devRef .tc main_v10) = dinv (colOf (m ((c : Thread nD τ).loc main_arg1))) :=
  calc W2 m ρ c (Proc.devRef .tc main_v10)
    _ = W1 m ρ c (Proc.devRef .tc main_v10) := W2_of_ne m ρ c main_v10 (by decide)
    _ = dinv (colOf (m ((c : Thread nD τ).loc main_arg1))) := W1_v10 m ρ c

/-- The first bias is still there at region 0's exit. -/
theorem W2_arg3 (c : Dev nD) : W2 m ρ c (Proc.devRef .tc main_arg3) = (m ((c : Thread nD τ).loc main_arg3)) :=
  calc W2 m ρ c (Proc.devRef .tc main_arg3)
    _ = W1 m ρ c (Proc.devRef .tc main_arg3) := W2_of_ne m ρ c main_arg3 (by decide)
    _ = (m ((c : Thread nD τ).loc main_arg3)) := W1_arg3 m ρ c

/-! ## The second stretch: the first propagation -/

theorem W3_v52 (c : Dev nD) : W3 m ρ c (Proc.devRef .tc main_v52)
    = agg (mm (R := 50000) (K := 128) (C := 256) (m ((c : Thread nD τ).loc main_arg0)) (m ((c : Thread nD τ).loc main_arg2))) (dinv (colOf (m ((c : Thread nD τ).loc main_arg1)))) (rowOf (m ((c : Thread nD τ).loc main_arg1))) (colOf (m ((c : Thread nD τ).loc main_arg1))) (m ((c : Thread nD τ).loc main_arg3)) := by
  have h : W3 m ρ c (Proc.devRef .tc main_v52) = agg (W2 m ρ c (Proc.devRef .tc main_v16_0)) (W2 m ρ c (Proc.devRef .tc main_v10))
      (W2 m ρ c (Proc.devRef .tc main_v1)) (W2 m ρ c (Proc.devRef .tc main_v3)) (W2 m ρ c (Proc.devRef .tc main_arg3)) := by
    show StableHlo.after hostOps1 (W2 m ρ c) (Proc.devRef .tc main_v52) = _
    after_results_simp
    rfl
  rw [h, W2_v16_0, W2_v10, W2_v1, W2_v3, W2_arg3]

/-- The first scale vector, as a row, is still there at region 1's entry. -/
theorem W3_v12 (c : Dev nD) : W3 m ρ c (Proc.devRef .tc main_v12) = shapeCast S1x256 (m ((c : Thread nD τ).loc main_arg6)) shapeCasts_S256_S1x256 :=
  calc W3 m ρ c (Proc.devRef .tc main_v12)
    _ = W2 m ρ c (Proc.devRef .tc main_v12) := by show StableHlo.after hostOps1 (W2 m ρ c) (Proc.devRef .tc main_v12) = _; after_results_simp
    _ = W1 m ρ c (Proc.devRef .tc main_v12) := W2_of_ne m ρ c main_v12 (by decide)
    _ = shapeCast S1x256 (m ((c : Thread nD τ).loc main_arg6)) shapeCasts_S256_S1x256 := W1_v12 m ρ c

/-- The first shift vector, as a row, is still there at region 1's entry. -/
theorem W3_v13 (c : Dev nD) : W3 m ρ c (Proc.devRef .tc main_v13) = shapeCast S1x256 (m ((c : Thread nD τ).loc main_arg7)) shapeCasts_S256_S1x256 :=
  calc W3 m ρ c (Proc.devRef .tc main_v13)
    _ = W2 m ρ c (Proc.devRef .tc main_v13) := by show StableHlo.after hostOps1 (W2 m ρ c) (Proc.devRef .tc main_v13) = _; after_results_simp
    _ = W1 m ρ c (Proc.devRef .tc main_v13) := W2_of_ne m ρ c main_v13 (by decide)
    _ = shapeCast S1x256 (m ((c : Thread nD τ).loc main_arg7)) shapeCasts_S256_S1x256 := W1_v13 m ρ c

/-! ## Region 1: the first normalisation -/

theorem W4_v53 (c : Dev nD) : W4 m ρ c (Proc.devRef .tc main_v53) = (lnrelu (R := 50000) (agg (mm (R := 50000) (K := 128) (C := 256) (m ((c : Thread nD τ).loc main_arg0)) (m ((c : Thread nD τ).loc main_arg2))) (dinv (colOf (m ((c : Thread nD τ).loc main_arg1)))) (rowOf (m ((c : Thread nD τ).loc main_arg1))) (colOf (m ((c : Thread nD τ).loc main_arg1))) (m ((c : Thread nD τ).loc main_arg3))) (m ((c : Thread nD τ).loc main_arg6)) (m ((c : Thread nD τ).loc main_arg7))) := by
  refine (W4_arr m ρ c 3).trans ((Reg1.final_3 (V3 m ρ) c (m ((c : Thread nD τ).loc main_arg6)) (m ((c : Thread nD τ).loc main_arg7)) (fun q => ?_) (fun q => ?_)).trans ?_)
  · show (W3 m ρ c (Proc.devRef .tc main_v12) : S1x256.Idx → EReal) (ix2 (0 : Fin 1) q) = _
    rw [W3_v12]; exact row_cast _ q
  · show (W3 m ρ c (Proc.devRef .tc main_v13) : S1x256.Idx → EReal) (ix2 (0 : Fin 1) q) = _
    rw [W3_v13]; exact row_cast _ q
  · show lnrelu (R := 50000) (W3 m ρ c (Proc.devRef .tc main_v52)) _ _ = _
    rw [W3_v52]

/-- The second weight matrix is still there at region 2's entry. -/
theorem W4_arg4 (c : Dev nD) : W4 m ρ c (Proc.devRef .tc main_arg4) = (m ((c : Thread nD τ).loc main_arg4)) :=
  calc W4 m ρ c (Proc.devRef .tc main_arg4)
    _ = W3 m ρ c (Proc.devRef .tc main_arg4) := W4_of_ne m ρ c main_arg4 (by decide)
    _ = W2 m ρ c (Proc.devRef .tc main_arg4) := by show StableHlo.after hostOps1 (W2 m ρ c) (Proc.devRef .tc main_arg4) = _; after_results_simp
    _ = W1 m ρ c (Proc.devRef .tc main_arg4) := W2_of_ne m ρ c main_arg4 (by decide)
    _ = (m ((c : Thread nD τ).loc main_arg4)) := W1_arg4 m ρ c

/-! ## Region 2: the second-layer product -/

theorem W5_v54 (c : Dev nD) : W5 m ρ c (Proc.devRef .tc main_v54) = (mm (R := 50000) (K := 256) (C := 256) (lnrelu (R := 50000) (agg (mm (R := 50000) (K := 128) (C := 256) (m ((c : Thread nD τ).loc main_arg0)) (m ((c : Thread nD τ).loc main_arg2))) (dinv (colOf (m ((c : Thread nD τ).loc main_arg1)))) (rowOf (m ((c : Thread nD τ).loc main_arg1))) (colOf (m ((c : Thread nD τ).loc main_arg1))) (m ((c : Thread nD τ).loc main_arg3))) (m ((c : Thread nD τ).loc main_arg6)) (m ((c : Thread nD τ).loc main_arg7))) (m ((c : Thread nD τ).loc main_arg4))) := by
  refine (W5_arr m ρ c 2).trans ((Reg2.final_2 (V4 m ρ) c).trans ?_)
  show mm (R := 50000) (K := 256) (C := 256) (W4 m ρ c (Proc.devRef .tc main_v53)) (W4 m ρ c (Proc.devRef .tc main_arg4)) = _
  rw [W4_v53, W4_arg4]

/-- The edge sources are still there at region 2's exit. -/
theorem W5_v1 (c : Dev nD) : W5 m ρ c (Proc.devRef .tc main_v1) = rowOf (m ((c : Thread nD τ).loc main_arg1)) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := by show StableHlo.after hostOps1 (W2 m ρ c) (Proc.devRef .tc main_v1) = _; after_results_simp
    _ = W1 m ρ c (Proc.devRef .tc main_v1) := W2_of_ne m ρ c main_v1 (by decide)
    _ = rowOf (m ((c : Thread nD τ).loc main_arg1)) := W1_v1 m ρ c

/-- The edge targets are still there at region 2's exit. -/
theorem W5_v3 (c : Dev nD) : W5 m ρ c (Proc.devRef .tc main_v3) = colOf (m ((c : Thread nD τ).loc main_arg1)) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by show StableHlo.after hostOps1 (W2 m ρ c) (Proc.devRef .tc main_v3) = _; after_results_simp
    _ = W1 m ρ c (Proc.devRef .tc main_v3) := W2_of_ne m ρ c main_v3 (by decide)
    _ = colOf (m ((c : Thread nD τ).loc main_arg1)) := W1_v3 m ρ c

/-- The inverse square roots of the degrees are still there at region 2's exit. -/
theorem W5_v10 (c : Dev nD) : W5 m ρ c (Proc.devRef .tc main_v10) = dinv (colOf (m ((c : Thread nD τ).loc main_arg1))) :=
  calc W5 m ρ c (Proc.devRef .tc main_v10)
    _ = W4 m ρ c (Proc.devRef .tc main_v10) := W5_of_ne m ρ c main_v10 (by decide)
    _ = W3 m ρ c (Proc.devRef .tc main_v10) := W4_of_ne m ρ c main_v10 (by decide)
    _ = W2 m ρ c (Proc.devRef .tc main_v10) := by show StableHlo.after hostOps1 (W2 m ρ c) (Proc.devRef .tc main_v10) = _; after_results_simp
    _ = W1 m ρ c (Proc.devRef .tc main_v10) := W2_of_ne m ρ c main_v10 (by decide)
    _ = dinv (colOf (m ((c : Thread nD τ).loc main_arg1))) := W1_v10 m ρ c

/-- The second bias is still there at region 2's exit. -/
theorem W5_arg5 (c : Dev nD) : W5 m ρ c (Proc.devRef .tc main_arg5) = (m ((c : Thread nD τ).loc main_arg5)) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := by show StableHlo.after hostOps1 (W2 m ρ c) (Proc.devRef .tc main_arg5) = _; after_results_simp
    _ = W1 m ρ c (Proc.devRef .tc main_arg5) := W2_of_ne m ρ c main_arg5 (by decide)
    _ = (m ((c : Thread nD τ).loc main_arg5)) := W1_arg5 m ρ c

/-! ## The third stretch: the second propagation -/

theorem W6_v90 (c : Dev nD) : W6 m ρ c (Proc.devRef .tc main_v90) = (agg (mm (R := 50000) (K := 256) (C := 256) (lnrelu (R := 50000) (agg (mm (R := 50000) (K := 128) (C := 256) (m ((c : Thread nD τ).loc main_arg0)) (m ((c : Thread nD τ).loc main_arg2))) (dinv (colOf (m ((c : Thread nD τ).loc main_arg1)))) (rowOf (m ((c : Thread nD τ).loc main_arg1))) (colOf (m ((c : Thread nD τ).loc main_arg1))) (m ((c : Thread nD τ).loc main_arg3))) (m ((c : Thread nD τ).loc main_arg6)) (m ((c : Thread nD τ).loc main_arg7))) (m ((c : Thread nD τ).loc main_arg4))) (dinv (colOf (m ((c : Thread nD τ).loc main_arg1)))) (rowOf (m ((c : Thread nD τ).loc main_arg1))) (colOf (m ((c : Thread nD τ).loc main_arg1))) (m ((c : Thread nD τ).loc main_arg5))) := by
  have h : W6 m ρ c (Proc.devRef .tc main_v90) = agg (W5 m ρ c (Proc.devRef .tc main_v54)) (W5 m ρ c (Proc.devRef .tc main_v10))
      (W5 m ρ c (Proc.devRef .tc main_v1)) (W5 m ρ c (Proc.devRef .tc main_v3)) (W5 m ρ c (Proc.devRef .tc main_arg5)) := by
    show StableHlo.after hostOps3 (W5 m ρ c) (Proc.devRef .tc main_v90) = _
    after_results_simp
    rfl
  rw [h, W5_v54, W5_v10, W5_v1, W5_v3, W5_arg5]

/-- The second scale vector, as a row, is still there at region 3's entry. -/
theorem W6_v14 (c : Dev nD) : W6 m ρ c (Proc.devRef .tc main_v14) = shapeCast S1x256 (m ((c : Thread nD τ).loc main_arg8)) shapeCasts_S256_S1x256 :=
  calc W6 m ρ c (Proc.devRef .tc main_v14)
    _ = W5 m ρ c (Proc.devRef .tc main_v14) := by show StableHlo.after hostOps3 (W5 m ρ c) (Proc.devRef .tc main_v14) = _; after_results_simp
    _ = W4 m ρ c (Proc.devRef .tc main_v14) := W5_of_ne m ρ c main_v14 (by decide)
    _ = W3 m ρ c (Proc.devRef .tc main_v14) := W4_of_ne m ρ c main_v14 (by decide)
    _ = W2 m ρ c (Proc.devRef .tc main_v14) := by show StableHlo.after hostOps1 (W2 m ρ c) (Proc.devRef .tc main_v14) = _; after_results_simp
    _ = W1 m ρ c (Proc.devRef .tc main_v14) := W2_of_ne m ρ c main_v14 (by decide)
    _ = shapeCast S1x256 (m ((c : Thread nD τ).loc main_arg8)) shapeCasts_S256_S1x256 := W1_v14 m ρ c

/-- The second shift vector, as a row, is still there at region 3's entry. -/
theorem W6_v15 (c : Dev nD) : W6 m ρ c (Proc.devRef .tc main_v15) = shapeCast S1x256 (m ((c : Thread nD τ).loc main_arg9)) shapeCasts_S256_S1x256 :=
  calc W6 m ρ c (Proc.devRef .tc main_v15)
    _ = W5 m ρ c (Proc.devRef .tc main_v15) := by show StableHlo.after hostOps3 (W5 m ρ c) (Proc.devRef .tc main_v15) = _; after_results_simp
    _ = W4 m ρ c (Proc.devRef .tc main_v15) := W5_of_ne m ρ c main_v15 (by decide)
    _ = W3 m ρ c (Proc.devRef .tc main_v15) := W4_of_ne m ρ c main_v15 (by decide)
    _ = W2 m ρ c (Proc.devRef .tc main_v15) := by show StableHlo.after hostOps1 (W2 m ρ c) (Proc.devRef .tc main_v15) = _; after_results_simp
    _ = W1 m ρ c (Proc.devRef .tc main_v15) := W2_of_ne m ρ c main_v15 (by decide)
    _ = shapeCast S1x256 (m ((c : Thread nD τ).loc main_arg9)) shapeCasts_S256_S1x256 := W1_v15 m ρ c

/-- The residual x·Wp + bp that region 0 left is still there at region 3's entry. -/
theorem W6_v16_1 (c : Dev nD) : W6 m ρ c (Proc.devRef .tc main_v16_1) = (mmb (R := 50000) (K := 128) (C := 256) (m ((c : Thread nD τ).loc main_arg0)) (m ((c : Thread nD τ).loc main_arg10)) (m ((c : Thread nD τ).loc main_arg11))) :=
  calc W6 m ρ c (Proc.devRef .tc main_v16_1)
    _ = W5 m ρ c (Proc.devRef .tc main_v16_1) := by show StableHlo.after hostOps3 (W5 m ρ c) (Proc.devRef .tc main_v16_1) = _; after_results_simp
    _ = W4 m ρ c (Proc.devRef .tc main_v16_1) := W5_of_ne m ρ c main_v16_1 (by decide)
    _ = W3 m ρ c (Proc.devRef .tc main_v16_1) := W4_of_ne m ρ c main_v16_1 (by decide)
    _ = W2 m ρ c (Proc.devRef .tc main_v16_1) := by show StableHlo.after hostOps1 (W2 m ρ c) (Proc.devRef .tc main_v16_1) = _; after_results_simp
    _ = (mmb (R := 50000) (K := 128) (C := 256) (m ((c : Thread nD τ).loc main_arg0)) (m ((c : Thread nD τ).loc main_arg10)) (m ((c : Thread nD τ).loc main_arg11))) := W2_v16_1 m ρ c

/-! ## Region 3: the second normalisation, the residual and the clamp -/

/-- The kernel's result array as one function of the argument arrays. -/
def result (c : Dev nD) : (⟨2, ![50000, 256]⟩ : Shape).Idx → EReal := (lnres (R := 50000) (agg (mm (R := 50000) (K := 256) (C := 256) (lnrelu (R := 50000) (agg (mm (R := 50000) (K := 128) (C := 256) (m ((c : Thread nD τ).loc main_arg0)) (m ((c : Thread nD τ).loc main_arg2))) (dinv (colOf (m ((c : Thread nD τ).loc main_arg1)))) (rowOf (m ((c : Thread nD τ).loc main_arg1))) (colOf (m ((c : Thread nD τ).loc main_arg1))) (m ((c : Thread nD τ).loc main_arg3))) (m ((c : Thread nD τ).loc main_arg6)) (m ((c : Thread nD τ).loc main_arg7))) (m ((c : Thread nD τ).loc main_arg4))) (dinv (colOf (m ((c : Thread nD τ).loc main_arg1)))) (rowOf (m ((c : Thread nD τ).loc main_arg1))) (colOf (m ((c : Thread nD τ).loc main_arg1))) (m ((c : Thread nD τ).loc main_arg5))) (m ((c : Thread nD τ).loc main_arg8)) (m ((c : Thread nD τ).loc main_arg9)) (mmb (R := 50000) (K := 128) (C := 256) (m ((c : Thread nD τ).loc main_arg0)) (m ((c : Thread nD τ).loc main_arg10)) (m ((c : Thread nD τ).loc main_arg11))))

theorem W7_v91 (c : Dev nD) : W7 m ρ c (Proc.devRef .tc main_v91) = result m c := by
  unfold result
  refine (W7_arr m ρ c 4).trans ((Reg3.final_4 (V6 m ρ) c (m ((c : Thread nD τ).loc main_arg8)) (m ((c : Thread nD τ).loc main_arg9)) (fun q => ?_) (fun q => ?_)).trans ?_)
  · show (W6 m ρ c (Proc.devRef .tc main_v14) : S1x256.Idx → EReal) (ix2 (0 : Fin 1) q) = _
    rw [W6_v14]; exact row_cast _ q
  · show (W6 m ρ c (Proc.devRef .tc main_v15) : S1x256.Idx → EReal) (ix2 (0 : Fin 1) q) = _
    rw [W6_v15]; exact row_cast _ q
  · show lnres (R := 50000) (W6 m ρ c (Proc.devRef .tc main_v90)) _ _ (W6 m ρ c (Proc.devRef .tc main_v16_1)) = _
    rw [W6_v90, W6_v16_1]

end Cert.KernelIdeal.KChain

end
-- ==== Proof.RefSide.lean ====
/-
  The reference's result as the same function of the argument arrays as the kernel's.

  Read stage by stage: its two first matrix products are `mm` and `mmb` (a sum over the contracted axis, the bias
  broadcast along the rows); its propagation steps are the very host stages `agg`, `dinv`, `rowOf`, `colOf` of the
  kernel's program applied to the same operands (the reference recomputes the inverse square roots of the degrees for
  the second step: the same term); its normalisations are `lnrelu` and `lnres`.
-/
import proofs.«177957_j2018634629420_1_alg».proof.Proof.Gen.ReferenceIdeal.Read
import proofs.«177957_j2018634629420_1_alg».proof.Proof.HostOps
import proofs.«177957_j2018634629420_1_alg».proof.Proof.Spec
import Idealize.ShloMosaic.PureOps.Ideal.Laws
import Idealize.ShloMosaic.Lib.ValueIdx

set_option maxRecDepth 16384

noncomputable section

namespace Cert.ReferenceIdeal.RefValue

open Cert.ReferenceIdeal Cert.ReferenceIdeal.Read Cert.Spec
open Idealize.ShloMosaic Idealize.ShloMosaic.ValueIdx
open Cert.KernelIdeal.HostOps (rowOf colOf dinv agg)

variable (x0 : (⟨S50000x128, .f32⟩ : BufTy).Contents (Elt Ideal)) (x1 : (⟨S2x800000, .i32⟩ : BufTy).Contents (Elt Ideal)) (x2 : (⟨S128x256, .f32⟩ : BufTy).Contents (Elt Ideal))
  (x3 : (⟨S256, .f32⟩ : BufTy).Contents (Elt Ideal)) (x4 : (⟨S256x256, .f32⟩ : BufTy).Contents (Elt Ideal)) (x5 x6 x7 x8 x9 : (⟨S256, .f32⟩ : BufTy).Contents (Elt Ideal))
  (x10 : (⟨S128x256, .f32⟩ : BufTy).Contents (Elt Ideal)) (x11 : (⟨S256, .f32⟩ : BufTy).Contents (Elt Ideal))

/-! ## The matrix products -/

/-- x·W1 on the host is `mm`. -/
theorem v8_eq : val_main_v8 (F := Ideal) x0 x2 = mm (R := 50000) (K := 128) (C := 256) x0 x2 := by
  funext i
  obtain ⟨r, q, rfl⟩ : ∃ (r : Fin 50000) (q : Fin 256), i = ix2 r q := ⟨i 0, i 1, eq_ix2 i⟩
  rw [val_main_v8_apply, mm_apply]
  refine Finset.sum_congr rfl fun k _ => ?_
  have el : lidx_main_v8 (ix2 r q) k = ix2 r k := funext fun a => Fin.ext (by match a with | ⟨0, _⟩ => rfl | ⟨1, _⟩ => rfl)
  have er : ridx_main_v8 (ix2 r q) k = ix2 k q := funext fun a => Fin.ext (by match a with | ⟨0, _⟩ => rfl | ⟨1, _⟩ => rfl)
  rw [el, er]

/-- x·Wp + bp on the host is `mmb`. -/
theorem v7_eq : val_main_v7 (F := Ideal) x0 x10 x11 = mmb (R := 50000) (K := 128) (C := 256) x0 x10 x11 := by
  funext i
  obtain ⟨r, q, rfl⟩ : ∃ (r : Fin 50000) (q : Fin 256), i = ix2 r q := ⟨i 0, i 1, eq_ix2 i⟩
  rw [val_main_v7_apply, val_main_v4_apply, val_main_v6_apply, val_main_v5_apply, mmb_apply]
  have e6 : idx_main_v5 (idx_main_v6 (ix2 r q)) = ix1 q := funext fun a => Fin.ext (by match a with | ⟨0, _⟩ => rfl)
  rw [e6]
  refine congrArg (· + x11 (ix1 q)) (Finset.sum_congr rfl fun k _ => ?_)
  have el : lidx_main_v4 (ix2 r q) k = ix2 r k := funext fun a => Fin.ext (by match a with | ⟨0, _⟩ => rfl | ⟨1, _⟩ => rfl)
  have er : ridx_main_v4 (ix2 r q) k = ix2 k q := funext fun a => Fin.ext (by match a with | ⟨0, _⟩ => rfl | ⟨1, _⟩ => rfl)
  rw [el, er]

/-- The second-layer product on the host is `mm` of the stage before it. -/
theorem v77_eq : val_main_v77 (F := Ideal) x0 x1 x2 x3 x4 x6 x7
    = mm (R := 50000) (K := 256) (C := 256) (val_main_v76 (F := Ideal) x0 x1 x2 x3 x6 x7) x4 := by
  funext i
  obtain ⟨r, q, rfl⟩ : ∃ (r : Fin 50000) (q : Fin 256), i = ix2 r q := ⟨i 0, i 1, eq_ix2 i⟩
  rw [val_main_v77_apply, mm_apply]
  refine Finset.sum_congr rfl fun k _ => ?_
  have el : lidx_main_v77 (ix2 r q) k = ix2 r k := funext fun a => Fin.ext (by match a with | ⟨0, _⟩ => rfl | ⟨1, _⟩ => rfl)
  have er : ridx_main_v77 (ix2 r q) k = ix2 k q := funext fun a => Fin.ext (by match a with | ⟨0, _⟩ => rfl | ⟨1, _⟩ => rfl)
  rw [el, er]

/-! ## The propagation steps: the kernel's host stages, applied to the same operands -/

theorem v51_eq : val_main_v51 (F := Ideal) x0 x1 x2 x3
    = agg (val_main_v8 (F := Ideal) x0 x2) (dinv (colOf x1)) (rowOf x1) (colOf x1) x3 := rfl

theorem v120_eq : val_main_v120 (F := Ideal) x0 x1 x2 x3 x4 x5 x6 x7
    = agg (val_main_v77 (F := Ideal) x0 x1 x2 x3 x4 x6 x7) (dinv (colOf x1)) (rowOf x1) (colOf x1) x5 := rfl

/-! ## The normalisations -/

/-! ### Layer 1 -/

theorem e_v56 (r : Fin 50000) (q : Fin 256) : idx_main_v56 (ix2 r q) = ix2 r (0 : Fin 1) :=
  funext fun a => Fin.ext (by match a with | ⟨0, _⟩ => rfl | ⟨1, _⟩ => rfl)
theorem e_v63 (r : Fin 50000) (q : Fin 256) : idx_main_v63 (ix2 r q) = ix2 r (0 : Fin 1) :=
  funext fun a => Fin.ext (by match a with | ⟨0, _⟩ => rfl | ⟨1, _⟩ => rfl)
theorem e_v68 (r : Fin 50000) (q : Fin 256) : idx_main_v68 (ix2 r q) = ix2 r (0 : Fin 1) :=
  funext fun a => Fin.ext (by match a with | ⟨0, _⟩ => rfl | ⟨1, _⟩ => rfl)
theorem e_v53 (r : Fin 50000) : idx_main_v53 (ix2 r (0 : Fin 1)) = ix1 r :=
  funext fun a => Fin.ext (by match a with | ⟨0, _⟩ => rfl)
theorem e_v60 (r : Fin 50000) : idx_main_v60 (ix2 r (0 : Fin 1)) = ix1 r :=
  funext fun a => Fin.ext (by match a with | ⟨0, _⟩ => rfl)
theorem e_v52 (r : Fin 50000) (k : Fin 256) : idx_main_v52 (ix1 r) k = ix2 r k :=
  funext fun a => Fin.ext (by match a with | ⟨0, _⟩ => rfl | ⟨1, _⟩ => rfl)
theorem e_v59 (r : Fin 50000) (k : Fin 256) : idx_main_v59 (ix1 r) k = ix2 r k :=
  funext fun a => Fin.ext (by match a with | ⟨0, _⟩ => rfl | ⟨1, _⟩ => rfl)
theorem e_v70 (r : Fin 50000) (q : Fin 256) : idx_main_v70 (idx_main_v71 (ix2 r q)) = ix1 q :=
  funext fun a => Fin.ext (by match a with | ⟨0, _⟩ => rfl)
theorem e_v73 (r : Fin 50000) (q : Fin 256) : idx_main_v73 (idx_main_v74 (ix2 r q)) = ix1 q :=
  funext fun a => Fin.ext (by match a with | ⟨0, _⟩ => rfl)

/-- The row mean as the host keeps it (a column): the row sum over 256. -/
theorem mean_a (r : Fin 50000) : val_main_v55 (F := Ideal) x0 x1 x2 x3 (ix2 r (0 : Fin 1)) = mean (R := 50000) (val_main_v51 (F := Ideal) x0 x1 x2 x3) r := by
  rw [val_main_v55_apply, val_main_v53_apply, e_v53, val_main_v52_apply, val_main_v54_apply, val_main_cst_9_apply, val_main_cst_8_apply]
  unfold mean
  have hs : ∑ k : Fin 256, (val_main_v51 (F := Ideal) x0 x1 x2 x3) (idx_main_v52 (ix1 r) k) = ∑ k : Fin 256, (val_main_v51 (F := Ideal) x0 x1 x2 x3) (ix2 r k) :=
    Finset.sum_congr rfl fun k _ => by rw [e_v52]
  rw [hs]
  show Ideal.div (Ideal.ofBits .f32 0x00000000#32 + _) _ = _
  rw [Ideal.ofBits_zero_f32, zero_add]
  rfl

/-- An entry's deviation from its row's mean (the form that is squared). -/
theorem dev_a (r : Fin 50000) (k : Fin 256) :
    val_main_v57 (F := Ideal) x0 x1 x2 x3 (ix2 r k) = (val_main_v51 (F := Ideal) x0 x1 x2 x3) (ix2 r k) - mean (R := 50000) (val_main_v51 (F := Ideal) x0 x1 x2 x3) r := by
  rw [val_main_v57_apply, val_main_v56_apply, e_v56, mean_a]
  rfl

/-- An entry's deviation from its row's mean (the form that is scaled). -/
theorem dev'_a (r : Fin 50000) (q : Fin 256) :
    val_main_v64 (F := Ideal) x0 x1 x2 x3 (ix2 r q) = (val_main_v51 (F := Ideal) x0 x1 x2 x3) (ix2 r q) - mean (R := 50000) (val_main_v51 (F := Ideal) x0 x1 x2 x3) r := by
  rw [val_main_v64_apply, val_main_v63_apply, e_v63, mean_a]
  rfl

/-- The row variance as the host keeps it (a column). -/
theorem var_a (r : Fin 50000) : val_main_v62 (F := Ideal) x0 x1 x2 x3 (ix2 r (0 : Fin 1)) = var (R := 50000) (val_main_v51 (F := Ideal) x0 x1 x2 x3) r := by
  rw [val_main_v62_apply, val_main_v60_apply, e_v60, val_main_v59_apply, val_main_v61_apply, val_main_cst_11_apply, val_main_cst_10_apply]
  unfold var
  have hs : ∑ k : Fin 256, (val_main_v58 (F := Ideal) x0 x1 x2 x3) (idx_main_v59 (ix1 r) k)
      = ∑ k : Fin 256, ((val_main_v51 (F := Ideal) x0 x1 x2 x3) (ix2 r k) - mean (R := 50000) (val_main_v51 (F := Ideal) x0 x1 x2 x3) r) * ((val_main_v51 (F := Ideal) x0 x1 x2 x3) (ix2 r k) - mean (R := 50000) (val_main_v51 (F := Ideal) x0 x1 x2 x3) r) :=
    Finset.sum_congr rfl fun k _ => by rw [e_v59, val_main_v58_apply, dev_a]; rfl
  rw [hs]
  show Ideal.div (Ideal.ofBits .f32 0x00000000#32 + _) _ = _
  rw [Ideal.ofBits_zero_f32, zero_add]
  rfl

/-- The reciprocal standard deviation, laid back along the row. -/
theorem rstd_a (r : Fin 50000) (q : Fin 256) :
    val_main_v68 (F := Ideal) x0 x1 x2 x3 (ix2 r q) = Ideal.rsqrt (var (R := 50000) (val_main_v51 (F := Ideal) x0 x1 x2 x3) r + weps) := by
  rw [val_main_v68_apply, e_v68, val_main_v67_apply, val_main_v66_apply, var_a, val_main_v65_apply, val_main_cst_12_apply]
  rfl

/-- Layer 1's normalisation on the host — the row sums kept as columns, the divisions by 256, the broadcasts back, the
    reciprocal square root, the scale and the shift, the maximum with zero — is `lnrelu` of the stage before it, entry by entry. -/
theorem ln1 : val_main_v76 (F := Ideal) x0 x1 x2 x3 x6 x7 = lnrelu (R := 50000) (val_main_v51 (F := Ideal) x0 x1 x2 x3) x6 x7 := by
  funext i
  obtain ⟨r, q, rfl⟩ : ∃ (r : Fin 50000) (q : Fin 256), i = ix2 r q := ⟨i 0, i 1, eq_ix2 i⟩
  rw [val_main_v76_apply, val_main_v75_apply, val_main_v72_apply, val_main_v69_apply, dev'_a, rstd_a,
    val_main_v71_apply, val_main_v70_apply, e_v70, val_main_v74_apply, val_main_v73_apply, e_v73, val_main_call0_v0_apply, val_main_call0_cst_apply, lnrelu_apply]
  rfl

/-! ### Layer 2 -/

theorem e_v125 (r : Fin 50000) (q : Fin 256) : idx_main_v125 (ix2 r q) = ix2 r (0 : Fin 1) :=
  funext fun a => Fin.ext (by match a with | ⟨0, _⟩ => rfl | ⟨1, _⟩ => rfl)
theorem e_v132 (r : Fin 50000) (q : Fin 256) : idx_main_v132 (ix2 r q) = ix2 r (0 : Fin 1) :=
  funext fun a => Fin.ext (by match a with | ⟨0, _⟩ => rfl | ⟨1, _⟩ => rfl)
theorem e_v137 (r : Fin 50000) (q : Fin 256) : idx_main_v137 (ix2 r q) = ix2 r (0 : Fin 1) :=
  funext fun a => Fin.ext (by match a with | ⟨0, _⟩ => rfl | ⟨1, _⟩ => rfl)
theorem e_v122 (r : Fin 50000) : idx_main_v122 (ix2 r (0 : Fin 1)) = ix1 r :=
  funext fun a => Fin.ext (by match a with | ⟨0, _⟩ => rfl)
theorem e_v129 (r : Fin 50000) : idx_main_v129 (ix2 r (0 : Fin 1)) = ix1 r :=
  funext fun a => Fin.ext (by match a with | ⟨0, _⟩ => rfl)
theorem e_v121 (r : Fin 50000) (k : Fin 256) : idx_main_v121 (ix1 r) k = ix2 r k :=
  funext fun a => Fin.ext (by match a with | ⟨0, _⟩ => rfl | ⟨1, _⟩ => rfl)
theorem e_v128 (r : Fin 50000) (k : Fin 256) : idx_main_v128 (ix1 r) k = ix2 r k :=
  funext fun a => Fin.ext (by match a with | ⟨0, _⟩ => rfl | ⟨1, _⟩ => rfl)
theorem e_v139 (r : Fin 50000) (q : Fin 256) : idx_main_v139 (idx_main_v140 (ix2 r q)) = ix1 q :=
  funext fun a => Fin.ext (by match a with | ⟨0, _⟩ => rfl)
theorem e_v142 (r : Fin 50000) (q : Fin 256) : idx_main_v142 (idx_main_v143 (ix2 r q)) = ix1 q :=
  funext fun a => Fin.ext (by match a with | ⟨0, _⟩ => rfl)

/-- The row mean as the host keeps it (a column): the row sum over 256. -/
theorem mean_b (r : Fin 50000) : val_main_v124 (F := Ideal) x0 x1 x2 x3 x4 x5 x6 x7 (ix2 r (0 : Fin 1)) = mean (R := 50000) (val_main_v120 (F := Ideal) x0 x1 x2 x3 x4 x5 x6 x7) r := by
  rw [val_main_v124_apply, val_main_v122_apply, e_v122, val_main_v121_apply, val_main_v123_apply, val_main_cst_24_apply, val_main_cst_23_apply]
  unfold mean
  have hs : ∑ k : Fin 256, (val_main_v120 (F := Ideal) x0 x1 x2 x3 x4 x5 x6 x7) (idx_main_v121 (ix1 r) k) = ∑ k : Fin 256, (val_main_v120 (F := Ideal) x0 x1 x2 x3 x4 x5 x6 x7) (ix2 r k) :=
    Finset.sum_congr rfl fun k _ => by rw [e_v121]
  rw [hs]
  show Ideal.div (Ideal.ofBits .f32 0x00000000#32 + _) _ = _
  rw [Ideal.ofBits_zero_f32, zero_add]
  rfl

/-- An entry's deviation from its row's mean (the form that is squared). -/
theorem dev_b (r : Fin 50000) (k : Fin 256) :
    val_main_v126 (F := Ideal) x0 x1 x2 x3 x4 x5 x6 x7 (ix2 r k) = (val_main_v120 (F := Ideal) x0 x1 x2 x3 x4 x5 x6 x7) (ix2 r k) - mean (R := 50000) (val_main_v120 (F := Ideal) x0 x1 x2 x3 x4 x5 x6 x7) r := by
  rw [val_main_v126_apply, val_main_v125_apply, e_v125, mean_b]
  rfl

/-- An entry's deviation from its row's mean (the form that is scaled). -/
theorem dev'_b (r : Fin 50000) (q : Fin 256) :
    val_main_v133 (F := Ideal) x0 x1 x2 x3 x4 x5 x6 x7 (ix2 r q) = (val_main_v120 (F := Ideal) x0 x1 x2 x3 x4 x5 x6 x7) (ix2 r q) - mean (R := 50000) (val_main_v120 (F := Ideal) x0 x1 x2 x3 x4 x5 x6 x7) r := by
  rw [val_main_v133_apply, val_main_v132_apply, e_v132, mean_b]
  rfl

/-- The row variance as the host keeps it (a column). -/
theorem var_b (r : Fin 50000) : val_main_v131 (F := Ideal) x0 x1 x2 x3 x4 x5 x6 x7 (ix2 r (0 : Fin 1)) = var (R := 50000) (val_main_v120 (F := Ideal) x0 x1 x2 x3 x4 x5 x6 x7) r := by
  rw [val_main_v131_apply, val_main_v129_apply, e_v129, val_main_v128_apply, val_main_v130_apply, val_main_cst_26_apply, val_main_cst_25_apply]
  unfold var
  have hs : ∑ k : Fin 256, (val_main_v127 (F := Ideal) x0 x1 x2 x3 x4 x5 x6 x7) (idx_main_v128 (ix1 r) k)
      = ∑ k : Fin 256, ((val_main_v120 (F := Ideal) x0 x1 x2 x3 x4 x5 x6 x7) (ix2 r k) - mean (R := 50000) (val_main_v120 (F := Ideal) x0 x1 x2 x3 x4 x5 x6 x7) r) * ((val_main_v120 (F := Ideal) x0 x1 x2 x3 x4 x5 x6 x7) (ix2 r k) - mean (R := 50000) (val_main_v120 (F := Ideal) x0 x1 x2 x3 x4 x5 x6 x7) r) :=
    Finset.sum_congr rfl fun k _ => by rw [e_v128, val_main_v127_apply, dev_b]; rfl
  rw [hs]
  show Ideal.div (Ideal.ofBits .f32 0x00000000#32 + _) _ = _
  rw [Ideal.ofBits_zero_f32, zero_add]
  rfl

/-- The reciprocal standard deviation, laid back along the row. -/
theorem rstd_b (r : Fin 50000) (q : Fin 256) :
    val_main_v137 (F := Ideal) x0 x1 x2 x3 x4 x5 x6 x7 (ix2 r q) = Ideal.rsqrt (var (R := 50000) (val_main_v120 (F := Ideal) x0 x1 x2 x3 x4 x5 x6 x7) r + weps) := by
  rw [val_main_v137_apply, e_v137, val_main_v136_apply, val_main_v135_apply, var_b, val_main_v134_apply, val_main_cst_27_apply]
  rfl

/-- Layer 2's normalisation on the host — the row sums kept as columns, the divisions by 256, the broadcasts back, the
    reciprocal square root, the scale and the shift, the residual, the maximum with zero — is `lnres` of the stage before it, entry by entry. -/
theorem ln2 : val_main_v146 (F := Ideal) x0 x1 x2 x3 x4 x5 x6 x7 x8 x9 x10 x11 = lnres (R := 50000) (val_main_v120 (F := Ideal) x0 x1 x2 x3 x4 x5 x6 x7) x8 x9 (val_main_v7 (F := Ideal) x0 x10 x11) := by
  funext i
  obtain ⟨r, q, rfl⟩ : ∃ (r : Fin 50000) (q : Fin 256), i = ix2 r q := ⟨i 0, i 1, eq_ix2 i⟩
  rw [val_main_v146_apply, val_main_v145_apply, val_main_v144_apply, val_main_v141_apply, val_main_v138_apply, dev'_b, rstd_b,
    val_main_v140_apply, val_main_v139_apply, e_v139, val_main_v143_apply, val_main_v142_apply, e_v142, val_main_call1_v0_apply, val_main_call1_cst_apply, lnres_apply]
  rfl
/-! ## The whole reference -/

/-- The reference's result, one function of the argument arrays. -/
theorem result_eq : val_main_v146 (F := Ideal) x0 x1 x2 x3 x4 x5 x6 x7 x8 x9 x10 x11
    = lnres (R := 50000)
        (agg (mm (R := 50000) (K := 256) (C := 256)
            (lnrelu (R := 50000) (agg (mm (R := 50000) (K := 128) (C := 256) x0 x2) (dinv (colOf x1)) (rowOf x1) (colOf x1) x3) x6 x7) x4)
          (dinv (colOf x1)) (rowOf x1) (colOf x1) x5)
        x8 x9 (mmb (R := 50000) (K := 128) (C := 256) x0 x10 x11) := by
  rw [ln2, v120_eq, v77_eq, ln1, v51_eq, v8_eq, v7_eq]

end Cert.ReferenceIdeal.RefValue

end
-- ==== Proof.lean ====
/-
  The certificate of the two-layer residual graph convolution: the kernel (four tiled regions for the dense products
  and the layer normalisations, host stages for the propagation over the edges) against the whole-array reference.

  On the extended reals both programs compute, for node features x and edge list e,
      out = max(LN₂(P(max(LN₁(P(x·W1, b1)), 0)·W2, b2)) + (x·Wp + bp), 0),
  where P is one propagation step over the graph (the same host stages in both programs) and LN is the row-by-row
  layer normalisation.  The kernel computes the products and the normalisations 2000 rows at a time; a row of a
  product or of a normalisation depends on that row of its operand only, so the blocks are the restrictions of the
  whole-array functions and tile the 50000 rows.  No law of arithmetic beyond that is used, and none needs finiteness.

  The three frames: the kernel's two are the generated ones; the reference's is its generated run with the result
  dropped.  The idealization rewrote nothing, so `preserves` is trivial.
-/
import proofs.«177957_j2018634629420_1_alg».proof.Defs
import proofs.«177957_j2018634629420_1_alg».proof.Proof.Gen.Kernel
import proofs.«177957_j2018634629420_1_alg».proof.Proof.Gen.Kernel.Skeleton
import proofs.«177957_j2018634629420_1_alg».proof.Proof.Gen.Kernel.Launch
import proofs.«177957_j2018634629420_1_alg».proof.Proof.Gen.Kernel.Points
import proofs.«177957_j2018634629420_1_alg».proof.Proof.Gen.Kernel.Frame
import proofs.«177957_j2018634629420_1_alg».proof.Proof.Gen.KernelIdeal
import proofs.«177957_j2018634629420_1_alg».proof.Proof.Gen.KernelIdeal.Skeleton
import proofs.«177957_j2018634629420_1_alg».proof.Proof.Gen.KernelIdeal.Launch
import proofs.«177957_j2018634629420_1_alg».proof.Proof.Gen.KernelIdeal.Points
import proofs.«177957_j2018634629420_1_alg».proof.Proof.Gen.KernelIdeal.Frame
import proofs.«177957_j2018634629420_1_alg».proof.Proof.Gen.ReferenceIdeal
import proofs.«177957_j2018634629420_1_alg».proof.Proof.Gen.Pre_finite_inputs
import proofs.«177957_j2018634629420_1_alg».proof.Proof.Gen.ReferenceIdeal.Run
import proofs.«177957_j2018634629420_1_alg».proof.Proof.Gen.ReferenceIdeal.Read
import proofs.«177957_j2018634629420_1_alg».proof.Proof.KRun
import proofs.«177957_j2018634629420_1_alg».proof.Proof.KChain
import proofs.«177957_j2018634629420_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the same function of the argument arrays in their result buffers: the kernel's by walking
    its regions and host stretches, the reference's by reading its stages. -/
theorem algebraic : Cert.algebraic_KernelIdeal_ReferenceIdeal := by
  intro m ρ m' ρ' _ hagree
  refine ⟨fun c => Cert.KernelIdeal.KChain.result m c, ?_, ?_⟩
  · exact (θ_run Cert.KernelIdeal.defs _ _).mono
      (fun r h c => ⟨(h c).1.trans (Cert.KernelIdeal.KChain.W7_v91 m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v146_eq, Cert.ReferenceIdeal.RefValue.result_eq, e0, e1, e2, e3, e4, e5, e6, e7, e8, e9, e10, e11]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
